-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x40 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x1 : Shape := ⟨2, ![2000, 1]⟩
abbrev S1x128 : Shape := ⟨2, ![1, 128]⟩
abbrev S50000x40 : Shape := ⟨2, ![50000, 40]⟩
abbrev S2000x40 : Shape := ⟨2, ![2000, 40]⟩
abbrev S1x40 : Shape := ⟨2, ![1, 40]⟩
abbrev S2000 : Shape := ⟨1, ![2000]⟩

abbrev nBuf : Space → Nat
  | .hbm => 56
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x128, .bf16⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .bf16⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .bf16⟩
  | .local _ .vmem, ⟨5, _⟩ => ⟨S2000x128, .bf16⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .bf16⟩
  | .local _ .vmem, ⟨16, _⟩ => ⟨S2000x128, .bf16⟩
  | .local _ .vmem, ⟨17, _⟩ => ⟨S128x40, .f32⟩
  | .local _ .vmem, ⟨18, _⟩ => ⟨S128x40, .f32⟩
  | .local _ .vmem, ⟨19, _⟩ => ⟨S40, .f32⟩
  | .local _ .vmem, ⟨20, _⟩ => ⟨S2000x40, .f32⟩
  | .local _ .vmem, ⟨21, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S40.size a ≤ S40.size a
  hwx1_5 : ∀ i : grid1.Coords, EltTy.bits .f32 = 32 ∨ (Rect.block (s := S40) S40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x40.size a ≤ S50000x40.size a
  hwx1_6 : ∀ i : grid1.Coords, EltTy.bits .f32 = 32 ∨ (Rect.block (s := S50000x40) S2000x40.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S2000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x40, .f32⟩
  | .hbm, ⟨72, _⟩ => ⟨S50000x40, .f32⟩
  | .hbm, ⟨73, _⟩ => ⟨S50000x40, .f32⟩
  | .hbm, ⟨74, _⟩ => ⟨S1x40, .f32⟩
  | .hbm, ⟨75, _⟩ => ⟨S50000x40, .f32⟩
  | .hbm, ⟨76, _⟩ => ⟨S50000x40, .f32⟩
  | .hbm, ⟨77, _⟩ => ⟨S_, .f32⟩
  | .hbm, ⟨78, _⟩ => ⟨S50000x40, .f32⟩
  | .hbm, ⟨79, _⟩ => ⟨S50000x40, .f32⟩
  | .hbm, ⟨80, _⟩ => ⟨S_, .f32⟩
  | .hbm, ⟨81, _⟩ => ⟨S50000, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000x1, .f32⟩
  | .hbm, ⟨86, _⟩ => ⟨S50000x40, .f32⟩
  | .hbm, ⟨87, _⟩ => ⟨S50000x40, .f32⟩
  | .hbm, ⟨88, _⟩ => ⟨S50000x40, .f32⟩
  | .hbm, ⟨89, _⟩ => ⟨S_, .f32⟩
  | .hbm, ⟨90, _⟩ => ⟨S50000, .f32⟩
  | .hbm, ⟨91, _⟩ => ⟨S50000x1, .f32⟩
  | .hbm, ⟨92, _⟩ => ⟨S50000x1, .f32⟩
  | .hbm, ⟨93, _⟩ => ⟨S50000x40, .f32⟩
  | .hbm, ⟨94, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_call2_cst : Ref sig .tc := ⟨.hbm, 80, rfl⟩
abbrev main_call2_v0 : Ref sig .tc := ⟨.hbm, 81, rfl⟩
abbrev main_call2_cst_0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_cst_1 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_v56 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S_S50000x40 : S_.BroadcastsInDim S50000x40 (![] : Fin 0 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.LibIdealLits.lean ====
import Idealize.ShloMosaic.PureOps.Ideal
import Idealize.ShloMosaic.PureOps.Ideal.Laws

/-!
# Three float literals at the ideal instance

The binary32 patterns of 1, of 16 and of minus infinity denote the extended reals 1, 16 and ⊥.
-/

namespace Cert.StepLaw

open Idealize.ShloMosaic

/-- The binary32 pattern of 1.0 denotes the real number 1. -/
theorem ofBits_one_f32 : Ideal.ofBits .f32 0x3F800000#32 = ((1 : ℝ) : EReal) := by
  simp [Ideal.ofBits, Ideal.ieee]
  norm_num
  rw [← EReal.coe_mul, ← EReal.coe_one]
  congr 1
  norm_num

/-- The binary32 pattern of 16.0 denotes the real number 16. -/
theorem ofBits_sixteen_f32 : Ideal.ofBits .f32 0x41800000#32 = ((16 : ℝ) : EReal) := by
  simp [Ideal.ofBits, Ideal.ieee]
  norm_num
  rw [← EReal.coe_mul]
  congr 1
  norm_num

/-- The binary32 pattern of minus infinity denotes ⊥. -/
theorem ofBits_neginf_f32 : Ideal.ofBits .f32 0xFF800000#32 = (⊥ : EReal) := by
  simp [Ideal.ofBits, Ideal.ieee]

end Cert.StepLaw
-- ==== Proof.LibMeanDiv.lean ====
/-
  A mean written two ways: the sum times the reciprocal of a clamped count, and the sum over the clamped count.

  For per-row sums `s : [N, C]` and per-row counts `deg : [N]`, one program multiplies `s` by the reciprocal
  `1 / d` of the clamped count `d = max(deg, 1)` (broadcast as a column, then across the `C` channels), another
  divides `s` by the broadcast `d`. On the extended reals division by `d ≠ 0` IS multiplication by `d⁻¹`, at the
  infinities too, and `1 / d = 1 · d⁻¹ = d⁻¹`; so the two agree wherever `d ≠ 0`, and `d ≥ 1 > 0` everywhere.
  No finiteness of `s` or of `deg` is needed.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.IdealHost
import proofs.«112267_j24215025615234_2_alg».proof.Proof.LibIdealLits

noncomputable section

namespace Cert.LibMeanDiv

open Idealize.ShloMosaic Idealize.ShloMosaic.ValueIdx

/-- `s · (1 / d) = s / d` on the extended reals, for `d ≠ 0`. -/
theorem mul_one_div (s d : EReal) (hd : d ≠ 0) : s * Ideal.div 1 d = Ideal.div s d := by
  unfold Ideal.div
  rw [if_neg hd, if_neg hd, one_mul]

/-- A maximum against the f32 word of `1.0` is not zero. -/
theorem max_one_ne_zero (a : EReal) : max a (Ideal.ofBits .f32 0x3F800000#32) ≠ 0 := by
  have h1 : (0 : EReal) < Ideal.ofBits .f32 0x3F800000#32 := by
    rw [Cert.StepLaw.ofBits_one_f32]; exact_mod_cast one_pos
  exact ne_of_gt (lt_max_of_lt_right h1)

section
variable {N C : Nat}

/-- A per-row value broadcast as a column and then across the `C` channels reads, at `(r, q)`, the row's value. -/
theorem bcast_row (h1 : (⟨1, ![N]⟩ : Shape).BroadcastsInDim ⟨2, ![N, 1]⟩ ![0])
    (h2 : (⟨2, ![N, 1]⟩ : Shape).BroadcastsInDim ⟨2, ![N, C]⟩ ![0, 1]) {α : Type} (v : (⟨1, ![N]⟩ : Shape).Idx → α)
    (r : Fin N) (q : Fin C) :
    broadcastInDim ⟨2, ![N, C]⟩ ![0, 1] h2 (broadcastInDim ⟨2, ![N, 1]⟩ ![0] h1 v) (ix2 r q) = v (ix1 r) := by
  rw [broadcastInDim_apply ![0, 1] h2 _ (ix2 r q) (ix2 r (0 : Fin 1)) (fun a => by
    match a with
    | ⟨0, _⟩ =>
      show r.val = if N = 1 then 0 else r.val
      split
      · have := r.isLt; omega
      · rfl
    | ⟨1, _⟩ => rfl)]
  exact broadcastInDim_apply ![0] h1 v (ix2 r (0 : Fin 1)) (ix1 r) (fun a => by
    match a with
    | ⟨0, _⟩ =>
      show r.val = if N = 1 then 0 else r.val
      split
      · have := r.isLt; omega
      · rfl)

/-- The sums times the broadcast reciprocal of the clamped count are the sums divided by the broadcast clamped
    count. -/
theorem mean_eq (h0 : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, C]⟩ ![0, 1])
    (s : FVec Ideal ⟨2, ![N, C]⟩ .f32) (deg : FVec Ideal ⟨1, ![N]⟩ .f32) :
    mulf (F := Ideal) s (broadcastInDim ⟨2, ![N, C]⟩ ![0, 1] h2 (broadcastInDim ⟨2, ![N, 1]⟩ ![0] h1
        (Host.divf (F := Ideal) (broadcastInDim ⟨1, ![N]⟩ ![] h0 (constant (F := Ideal) ⟨0, ![]⟩ .f32 0x3F800000#32))
          (maximumf (F := Ideal) deg (broadcastInDim ⟨1, ![N]⟩ ![] h0 (constant (F := Ideal) ⟨0, ![]⟩ .f32 0x3F800000#32))))))
      = Host.divf (F := Ideal) s (broadcastInDim ⟨2, ![N, C]⟩ ![0, 1] h2 (broadcastInDim ⟨2, ![N, 1]⟩ ![0] h1
          (maximumf (F := Ideal) deg (broadcastInDim ⟨1, ![N]⟩ ![] h0 (constant (F := Ideal) ⟨0, ![]⟩ .f32 0x3F800000#32))))) := by
  funext i
  obtain ⟨r, q, rfl⟩ : ∃ (r : Fin N) (q : Fin C), i = ix2 r q := ⟨i 0, i 1, eq_ix2 i⟩
  show s (ix2 r q) * _ = Ideal.div (s (ix2 r q)) _
  rw [bcast_row h1 h2, bcast_row h1 h2]
  show s (ix2 r q) * Ideal.div (broadcastInDim ⟨1, ![N]⟩ ![] h0 (constant (F := Ideal) ⟨0, ![]⟩ .f32 0x3F800000#32) (ix1 r))
      (max (deg (ix1 r)) (broadcastInDim ⟨1, ![N]⟩ ![] h0 (constant (F := Ideal) ⟨0, ![]⟩ .f32 0x3F800000#32) (ix1 r)))
    = Ideal.div (s (ix2 r q)) (max (deg (ix1 r)) (broadcastInDim ⟨1, ![N]⟩ ![] h0 (constant (F := Ideal) ⟨0, ![]⟩ .f32 0x3F800000#32) (ix1 r)))
  rw [broadcastInDim_scalar_apply h0]
  show s (ix2 r q) * Ideal.div (Ideal.ofBits .f32 0x3F800000#32) (max (deg (ix1 r)) (Ideal.ofBits .f32 0x3F800000#32))
    = Ideal.div (s (ix2 r q)) (max (deg (ix1 r)) (Ideal.ofBits .f32 0x3F800000#32))
  have h := mul_one_div (s (ix2 r q)) _ (max_one_ne_zero (deg (ix1 r)))
  rw [← h, Cert.StepLaw.ofBits_one_f32]
  rfl

end

end Cert.LibMeanDiv

end
-- ==== Proof.Spec.lean ====
/-
  The mathematics both programs compute, over the extended reals, stated once and index by index.

  A GraphSAGE layer takes, for every node `r`, the (already normalised) neighbourhood aggregate `a r ·` and the node's
  own features `feat r ·`, and returns `max (a·Wl + feat·Wr + b) 0`: entry `(r, j)` is the sum over the `K` input
  channels of `a (r, c) · Wl (c, j)`, plus the sum over them of `feat (r, c) · Wr (c, j)`, plus `b j`, clamped below
  at zero. Each entry depends on row `r` of `a` and of `feat` only, which is why a tiling of the rows computes it block
  by block.

  The normalisation divides a row of sums by the node's clamped in-degree. One program multiplies by the reciprocal
  `1 / max (deg, 1)` (`scaleMul`), the other divides by `max (deg, 1)` (`scaleDiv`); on the extended reals
  `s · (1 / d) = s / d` for every `s` as soon as `d ≠ 0`, and a maximum against `1` is never `0`, so the two agree with
  no finiteness assumption (`scaleMul_recip_eq_scaleDiv`).

  The last layer is followed by a row-wise log-softmax: with `M r` the maximum of row `r` (folded from `-∞`), entry
  `(r, j)` is `(o (r, j) - M r) - log (∑ k, exp (o (r, k) - M r))`.
-/
import Idealize.ShloMosaic.PureOps.Ideal
import Idealize.ShloMosaic.PureOps.Ideal.Laws
import Idealize.ShloMosaic.Lib.ValueIdx
import proofs.«112267_j24215025615234_2_alg».proof.Proof.LibMeanDiv

noncomputable section

open scoped BigOperators

namespace Cert.Sage

open Idealize.ShloMosaic Idealize.ShloMosaic.ValueIdx

/-- The f32 words of `0`, `1` and `-∞`, as the extended reals they denote. -/
abbrev zeroW : EReal := Ideal.ofBits .f32 0x00000000#32
abbrev oneW : EReal := Ideal.ofBits .f32 0x3F800000#32
abbrev negInfW : EReal := Ideal.ofBits .f32 0xFF800000#32

section Layer
variable {N K C : ℕ}

/-- Entry `(r, j)` of `max (a·Wl + feat·Wr + b) 0`. -/
def linAt (a feat : (⟨2, ![N, K]⟩ : Shape).Idx → EReal) (Wl Wr : (⟨2, ![K, C]⟩ : Shape).Idx → EReal)
    (b : (⟨1, ![C]⟩ : Shape).Idx → EReal) (r : Fin N) (j : Fin C) : EReal :=
  max (((∑ c : Fin K, a (ix2 r c) * Wl (ix2 c j)) + ∑ c : Fin K, feat (ix2 r c) * Wr (ix2 c j)) + b (ix1 j)) zeroW

/-- The layer as one function of the whole arrays. -/
def lin (a feat : (⟨2, ![N, K]⟩ : Shape).Idx → EReal) (Wl Wr : (⟨2, ![K, C]⟩ : Shape).Idx → EReal)
    (b : (⟨1, ![C]⟩ : Shape).Idx → EReal) : (⟨2, ![N, C]⟩ : Shape).Idx → EReal :=
  fun i => linAt a feat Wl Wr b (i 0) (i 1)

theorem lin_ix2 (a feat : (⟨2, ![N, K]⟩ : Shape).Idx → EReal) (Wl Wr : (⟨2, ![K, C]⟩ : Shape).Idx → EReal)
    (b : (⟨1, ![C]⟩ : Shape).Idx → EReal) (r : Fin N) (j : Fin C) :
    lin a feat Wl Wr b (ix2 r j) = linAt a feat Wl Wr b r j := rfl

/-- A row of sums times the row's reciprocal weight, kept as a column `[N, 1]`. -/
def scaleMul (agg : (⟨2, ![N, K]⟩ : Shape).Idx → EReal) (inv : (⟨2, ![N, 1]⟩ : Shape).Idx → EReal) :
    (⟨2, ![N, K]⟩ : Shape).Idx → EReal :=
  fun i => agg i * inv (ix2 (i 0) (0 : Fin 1))

theorem scaleMul_ix2 (agg : (⟨2, ![N, K]⟩ : Shape).Idx → EReal) (inv : (⟨2, ![N, 1]⟩ : Shape).Idx → EReal)
    (r : Fin N) (c : Fin K) : scaleMul agg inv (ix2 r c) = agg (ix2 r c) * inv (ix2 r (0 : Fin 1)) := rfl

/-- A row of sums divided by the row's weight. -/
def scaleDiv (agg : (⟨2, ![N, K]⟩ : Shape).Idx → EReal) (d : (⟨1, ![N]⟩ : Shape).Idx → EReal) :
    (⟨2, ![N, K]⟩ : Shape).Idx → EReal :=
  fun i => Ideal.div (agg i) (d (ix1 (i 0)))

theorem scaleDiv_ix2 (agg : (⟨2, ![N, K]⟩ : Shape).Idx → EReal) (d : (⟨1, ![N]⟩ : Shape).Idx → EReal)
    (r : Fin N) (c : Fin K) : scaleDiv agg d (ix2 r c) = Ideal.div (agg (ix2 r c)) (d (ix1 r)) := rfl

/-- The word of `1.0` is the extended real `1`. -/
theorem oneW_eq : oneW = (1 : EReal) := by
  show Ideal.ofBits .f32 0x3F800000#32 = 1
  rw [Cert.StepLaw.ofBits_one_f32]; rfl

/-- Multiplying a row of sums by `1 / max (deg, 1)` is dividing it by `max (deg, 1)`: no finiteness is needed, since the
    divisor is never `0`. -/
theorem scaleMul_recip_eq_scaleDiv (agg : (⟨2, ![N, K]⟩ : Shape).Idx → EReal) (deg : (⟨1, ![N]⟩ : Shape).Idx → EReal)
    (inv : (⟨2, ![N, 1]⟩ : Shape).Idx → EReal)
    (hinv : ∀ r : Fin N, inv (ix2 r (0 : Fin 1)) = Ideal.div oneW (max (deg (ix1 r)) oneW)) :
    scaleMul agg inv = scaleDiv agg (fun i => max (deg i) oneW) := by
  funext i
  obtain ⟨r, c, rfl⟩ : ∃ (r : Fin N) (c : Fin K), i = ix2 r c := ⟨i 0, i 1, eq_ix2 i⟩
  rw [scaleMul_ix2, scaleDiv_ix2, hinv r]
  exact (congrArg (fun z => agg (ix2 r c) * Ideal.div z (max (deg (ix1 r)) oneW)) oneW_eq).trans
    (Cert.LibMeanDiv.mul_one_div (agg (ix2 r c)) _ (Cert.LibMeanDiv.max_one_ne_zero (deg (ix1 r))))

end Layer

section Softmax
variable {N C : ℕ}

/-- The maximum of row `r`, folded from `-∞`. -/
def rowMax (o : (⟨2, ![N, C]⟩ : Shape).Idx → EReal) (r : Fin N) : EReal :=
  (Finset.univ : Finset (Fin C)).fold max negInfW (fun k => o (ix2 r k))

/-- Entry `(r, j)` of the row-wise log-softmax. -/
def lsmAt (o : (⟨2, ![N, C]⟩ : Shape).Idx → EReal) (r : Fin N) (j : Fin C) : EReal :=
  (o (ix2 r j) - rowMax o r) - Ideal.log (∑ k : Fin C, Ideal.exp (o (ix2 r k) - rowMax o r))

/-- The row-wise log-softmax of a matrix. -/
def lsm (o : (⟨2, ![N, C]⟩ : Shape).Idx → EReal) : (⟨2, ![N, C]⟩ : Shape).Idx → EReal :=
  fun i => lsmAt o (i 0) (i 1)

theorem lsm_ix2 (o : (⟨2, ![N, C]⟩ : Shape).Idx → EReal) (r : Fin N) (j : Fin C) :
    lsm o (ix2 r j) = lsmAt o r j := rfl

/-- A fold of `max` from `b` is at least `b`, so a further maximum against `b` changes nothing. -/
theorem max_fold_max_self {ι : Type} (s : Finset ι) (b : EReal) (f : ι → EReal) :
    max b (s.fold max b f) = s.fold max b f :=
  max_eq_right (Finset.le_fold_max b |>.mpr (Or.inl le_rfl))

end Softmax

end Cert.Sage

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.BlockValue.lean ====
/-
  The values the two kernel bodies store, read at one entry.

  Each body first scales the aggregate block: row `r` of the `2000 × 128` block of neighbourhood sums is multiplied by
  the row's reciprocal weight, a column `[2000, 1]` broadcast along the 128 channels. It then forms two matrix products
  into zero accumulators — the scaled aggregate with the left weights, the node features with the right weights —, each
  entry `(r, j)` being the sum over the 128 contracted channels, adds them, adds the bias row (a `[C]` vector viewed
  as `[1, C]` and broadcast down the 2000 rows), and clamps at zero. Over the extended reals a change of float format is
  the identity and a shape cast between equal shapes is the identity, so entry `(r, j)` of this value is
  `max (∑ c, (agg (r, c) · inv r) · Wl (c, j) + ∑ c, feat (r, c) · Wr (c, j) + b j) 0`: the layer of Spec.lean at the
  scaled aggregate (`layer_apply`, for any number `C` of output channels).

  The second body goes on with a row-wise log-softmax of that value `o`: the maximum `M r` of each row (a fold of
  `max` from `-∞` over the row's entries), kept as a column and broadcast back, is subtracted; the differences are
  exponentiated and summed along each row; the logarithm of that column of sums is broadcast and subtracted again.
  Entry `(r, j)` is `(o (r, j) - M r) - log (∑ k, exp (o (r, k) - M r))` (`softmax_apply`).
-/
import proofs.«112267_j24215025615234_2_alg».proof.Proof.Gen.KernelIdeal.Skeleton
import proofs.«112267_j24215025615234_2_alg».proof.Proof.Spec
import proofs.«112267_j24215025615234_2_alg».proof.Proof.LibMatmulIx
import proofs.«112267_j24215025615234_2_alg».proof.Proof.LibKeepdims
import Idealize.ShloMosaic.Lib.ValueIdx
import Idealize.ShloMosaic.Lib.ValueLayout
import Idealize.ShloMosaic.Lib.Pipeline.Value

noncomputable section

open scoped BigOperators

namespace Cert.KernelIdeal.BlockValue

open Idealize.ShloMosaic Idealize.ShloMosaic.ValueIdx
open Cert.KernelIdeal Cert.KernelIdeal.Gen

/-! ## The pointwise exponential and logarithm at an index -/

/-- An exponential at an index is the extended reals' exponential of the element … -/
theorem expf_apply {s : Shape} {φ : FTy} (a : FVec Ideal s φ) (i : s.Idx) : exp a i = Ideal.exp (a i) := rfl

/-- … and a logarithm the extended reals' logarithm of the element. -/
theorem logf_apply {s : Shape} {φ : FTy} (a : FVec Ideal s φ) (i : s.Idx) : log a i = Ideal.log (a i) := rfl

/-! ## The scaled aggregate -/

/-- The aggregate block times the reciprocal-weight column broadcast along the channels, narrowed to the product's
    operand format, is the scaled aggregate: entry `(r, c)` is `agg (r, c) * inv (r, 0)`. The two casts between equal
    shapes and the narrowing are the identity on the extended reals. -/
theorem scaled_eq
    (x0 : FVec Ideal ⟨2, ![2000, 128]⟩ .f32) (x1 : FVec Ideal ⟨2, ![2000, 1]⟩ .f32)
    (h00 : (⟨2, ![2000, 128]⟩ : Shape).ShapeCasts ⟨2, ![2000, 128]⟩)
    (h11 : (⟨2, ![2000, 1]⟩ : Shape).ShapeCasts ⟨2, ![2000, 1]⟩)
    (hb1 : (⟨2, ![2000, 1]⟩ : Shape).Broadcasts ⟨2, ![2000, 128]⟩)
    (hlt : FTy.bits .bf16 < FTy.bits .f32) :
    (truncf .bf16 (mulf (shapeCast ⟨2, ![2000, 128]⟩ x0 h00)
        (broadcastTo ⟨2, ![2000, 128]⟩ (shapeCast ⟨2, ![2000, 1]⟩ x1 h11) hb1)) hlt : FVec Ideal ⟨2, ![2000, 128]⟩ .bf16)
      = Cert.Sage.scaleMul x0 x1 := by
  funext j
  obtain ⟨p, c, rfl⟩ : ∃ (p : Fin 2000) (c : Fin 128), j = ix2 p c := ⟨j 0, j 1, eq_ix2 j⟩
  rw [shapeCast_self, shapeCast_self]
  show x0 (ix2 p c) * broadcastTo ⟨2, ![2000, 128]⟩ x1 hb1 (ix2 p c) = _
  rw [Cert.LibKeepdims.broadcastTo_a1_ab_apply]
  rfl

/-! ## The layer: two products, the bias row, the clamp -/

/-- Entry `(p, q)` of `max (scaled·Wl + feat·Wr + b) 0` as the body computes it, for any number `C` of output
    channels: each product into the zero accumulator is the sum over the 128 contracted channels, the bias is read
    through its `[C] → [1, C] → [2000, C]` forms at `q`, and the broadcast scalar is the word of zero. -/
theorem layer_apply {C : ℕ}
    (x0 : FVec Ideal ⟨2, ![2000, 128]⟩ .f32) (x1 : FVec Ideal ⟨2, ![2000, 1]⟩ .f32)
    (x2 : FVec Ideal ⟨2, ![2000, 128]⟩ .bf16) (x3 x4 : FVec Ideal ⟨2, ![128, C]⟩ .f32) (x5 : FVec Ideal ⟨1, ![C]⟩ .f32)
    (h00 : (⟨2, ![2000, 128]⟩ : Shape).ShapeCasts ⟨2, ![2000, 128]⟩)
    (h11 : (⟨2, ![2000, 1]⟩ : Shape).ShapeCasts ⟨2, ![2000, 1]⟩)
    (hb1 : (⟨2, ![2000, 1]⟩ : Shape).Broadcasts ⟨2, ![2000, 128]⟩)
    (hlt : FTy.bits .bf16 < FTy.bits .f32)
    (w : DotDims.WF ⟨2, ![2000, 128]⟩ ⟨2, ![128, C]⟩ ⟨2, ![2000, C]⟩ [1] [0] [0] [1] [] [])
    (h5 : (⟨1, ![C]⟩ : Shape).ShapeCasts ⟨2, ![1, C]⟩)
    (hb5 : (⟨2, ![1, C]⟩ : Shape).Broadcasts ⟨2, ![2000, C]⟩)
    (p : Fin 2000) (q : Fin C) :
    maximumf
      (addf
        (addf
          (matmul (⟨[1], [0], [0], [1], [], [], w⟩ : DotDims _ _ _) none
            (truncf .bf16 (mulf (shapeCast ⟨2, ![2000, 128]⟩ x0 h00)
              (broadcastTo ⟨2, ![2000, 128]⟩ (shapeCast ⟨2, ![2000, 1]⟩ x1 h11) hb1)) hlt)
            (truncf .bf16 x3 hlt) (constant (F := Ideal) ⟨2, ![2000, C]⟩ .f32 0x00000000#32))
          (matmul (⟨[1], [0], [0], [1], [], [], w⟩ : DotDims _ _ _) none
            (shapeCast ⟨2, ![2000, 128]⟩ x2 h00) (truncf .bf16 x4 hlt)
            (constant (F := Ideal) ⟨2, ![2000, C]⟩ .f32 0x00000000#32)))
        (broadcastTo ⟨2, ![2000, C]⟩ (shapeCast ⟨2, ![1, C]⟩ x5 h5) hb5))
      (broadcast ⟨2, ![2000, C]⟩ (Scalar.ofBits (F := Ideal) .f32 0x00000000#32)) (ix2 p q)
    = Cert.Sage.linAt (Cert.Sage.scaleMul x0 x1) x2 x3 x4 x5 p q := by
  rw [scaled_eq, shapeCast_self]
  rw [maximumf_apply, addf_apply, addf_apply, broadcast_apply,
    Cert.LibMatmulIx.matmul_zero_apply, Cert.LibMatmulIx.matmul_zero_apply,
    broadcastTo_1b_ab_apply, shapeCast_a_1a_apply]
  rfl

/-! ## The row-wise log-softmax -/

/-- Entry `(p, q)` of the row-wise log-softmax of `o` as the body computes it: the row maximum is the fold of `max`
    from `-∞` over the row, read back through its column and broadcast forms; the row sum of the exponentials of the
    differences likewise; the result is `(o (p, q) - M p) - log (∑ k, exp (o (p, k) - M p))`. -/
theorem softmax_apply {C : ℕ} (o : FVec Ideal ⟨2, ![2000, C]⟩ .f32)
    (hr : (⟨2, ![2000, C]⟩ : Shape).Reduces [1] ⟨1, ![2000]⟩)
    (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : (⟨1, ![2000]⟩ : Shape).ShapeCasts ⟨2, ![2000, 1]⟩)
    (hb : (⟨2, ![2000, 1]⟩ : Shape).Broadcasts ⟨2, ![2000, C]⟩)
    (p : Fin 2000) (q : Fin C) :
    subf
      (subf o (broadcastTo ⟨2, ![2000, C]⟩ (shapeCast ⟨2, ![2000, 1]⟩
        (multiReduction (F := Ideal) .maximumf [1] ⟨1, ![2000]⟩ o 0xFF800000#32 hr hφ hmax) hc) hb))
      (broadcastTo ⟨2, ![2000, C]⟩
        (log (shapeCast ⟨2, ![2000, 1]⟩
          (multiReduction (F := Ideal) .add [1] ⟨1, ![2000]⟩
            (exp (subf o (broadcastTo ⟨2, ![2000, C]⟩ (shapeCast ⟨2, ![2000, 1]⟩
              (multiReduction (F := Ideal) .maximumf [1] ⟨1, ![2000]⟩ o 0xFF800000#32 hr hφ hmax) hc) hb)))
            0x00000000#32 hr hφ hadd) hc)) hb) (ix2 p q)
    = Cert.Sage.lsmAt o p q := by
  have hM : ∀ (r : Fin 2000) (k : Fin C),
      broadcastTo ⟨2, ![2000, C]⟩ (shapeCast ⟨2, ![2000, 1]⟩
        (multiReduction (F := Ideal) .maximumf [1] ⟨1, ![2000]⟩ o 0xFF800000#32 hr hφ hmax) hc) hb (ix2 r k)
        = Cert.Sage.rowMax o r := by
    intro r k
    rw [Cert.LibKeepdims.broadcastTo_a1_ab_apply, Cert.LibKeepdims.shapeCast_a_a1_apply,
      Cert.LibKeepdims.multiReduction_maximumf_axis1]
    rfl
  rw [subf_apply, subf_apply, hM, Cert.LibKeepdims.broadcastTo_a1_ab_apply, logf_apply,
    Cert.LibKeepdims.shapeCast_a_a1_apply, Cert.LibKeepdims.multiReduction_add_axis1]
  unfold Cert.Sage.lsmAt
  refine congrArg (fun z => (o (ix2 p q) - Cert.Sage.rowMax o p) - Ideal.log z) (Finset.sum_congr rfl fun k _ => ?_)
  rw [expf_apply, subf_apply, hM]

/-! ## The two stored values -/

/-- The first body stores, at `(p, q)`, the layer of the scaled aggregate (the final narrowing is the identity). -/
theorem k0_pay1_apply (x0 : Vec Ideal S2000x128 .f32) (x1 : Vec Ideal S2000x1 .f32) (x2 : Vec Ideal S2000x128 .bf16)
    (x3 x4 : Vec Ideal S128x128 .f32) (x5 : Vec Ideal S128 .f32) (p : Fin 2000) (q : Fin 128) :
    k0_pay1 (F := Ideal) x0 x1 x2 x3 x4 x5 (ix2 p q)
      = Cert.Sage.linAt (Cert.Sage.scaleMul x0 x1) x2 x3 x4 x5 p q :=
  layer_apply (C := 128) x0 x1 x2 x3 x4 x5 shapeCasts_S2000x128_S2000x128 shapeCasts_S2000x1_S2000x1
    broadcasts_S2000x1_S2000x128 bitsLt_bf16_f32 dot_S2000x128_S128x128_S2000x128_1_0_0_1_n_n_wf
    shapeCasts_S128_S1x128 broadcasts_S1x128_S2000x128 p q

/-- The second body stores, at `(p, q)`, the row-wise log-softmax of the layer of the scaled aggregate. -/
theorem k1_pay1_apply (x0 : Vec Ideal S2000x128 .f32) (x1 : Vec Ideal S2000x1 .f32) (x2 : Vec Ideal S2000x128 .bf16)
    (x3 x4 : Vec Ideal S128x40 .f32) (x5 : Vec Ideal S40 .f32) (p : Fin 2000) (q : Fin 40) :
    k1_pay1 (F := Ideal) x0 x1 x2 x3 x4 x5 (ix2 p q)
      = Cert.Sage.lsmAt (Cert.Sage.lin (Cert.Sage.scaleMul x0 x1) x2 x3 x4 x5) p q := by
  refine (softmax_apply (C := 40) _ reduces_S2000x40_S2000 (.inl rfl) rfl rfl shapeCasts_S2000_S2000x1
    broadcasts_S2000x1_S2000x40 p q).trans ?_
  refine congrArg (fun o => Cert.Sage.lsmAt o p q) (funext fun j => ?_)
  obtain ⟨r, k, rfl⟩ : ∃ (r : Fin 2000) (k : Fin 40), j = ix2 r k := ⟨j 0, j 1, eq_ix2 j⟩
  exact layer_apply (C := 40) x0 x1 x2 x3 x4 x5 shapeCasts_S2000x128_S2000x128 shapeCasts_S2000x1_S2000x1
    broadcasts_S2000x1_S2000x128 bitsLt_bf16_f32 dot_S2000x128_S128x40_S2000x40_1_0_0_1_n_n_wf
    shapeCasts_S40_S1x40 broadcasts_S1x40_S2000x40 r k

end Cert.KernelIdeal.BlockValue

end
-- ==== Proof.LayerArrays.lean ====
/-
  From blocks to whole arrays, for the two layers of the network.

  Each layer runs over a grid of 25 points on the 50000 nodes. At point `t` the three row-tiled inputs (the neighbourhood
  sums, the column of reciprocal degrees, the node features) and the output hold rows `2000·t … 2000·t + 1999` of their
  arrays; the two weight matrices and the bias are whole at every point. Entry `(r, j)` of a layer reads only row `r` of the
  row-tiled arguments (`linAt_of_row`), and entry `(r, j)` of the row-wise log-softmax reads only row `r` of its argument
  (`lsmAt_of_row`). So, with `r = 2000·t + p`, the layer of the blocks at `(p, j)` is the layer of the whole arrays at
  `(r, j)`: what point `t` writes back is block `t` of the whole-array function (`flushed0`, `flushed1`). The 25 blocks
  cover the output array, row `r` lying in the block of point `r / 2000` (`cover0`, `cover1`), hence the array ends
  holding the whole-array function (`layer1_arr`, `layer2_arr`).

  What the body computes from its blocks, entry by entry, is taken as a hypothesis (`hpay`) in both theorems.
-/
import proofs.«112267_j24215025615234_2_alg».proof.Proof.Gen.KernelIdeal.Frame
import proofs.«112267_j24215025615234_2_alg».proof.Proof.Spec
import Idealize.ShloMosaic.Lib.Pipeline.Value

set_option maxRecDepth 16384

noncomputable section

open scoped BigOperators

namespace Cert.KernelIdeal.LayerArrays

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The origin of a matrix, and of a vector, as the constant-zero offset. -/
theorem origin2 : (![0, 0] : Fin 2 → Nat) = fun _ => 0 := funext fun a => by fin_cases a <;> rfl
theorem origin1 : (![0] : Fin 1 → Nat) = fun _ => 0 := funext fun a => by fin_cases a <;> rfl

/-! ## A row of the layer reads one row of its row-tiled arguments -/

section Rows
open Cert.Sage
variable {N n K C : ℕ}

/-- Entry `(r, j)` of the layer is computed from row `r` of the aggregate, of the reciprocal column and of the
    features, and from the whole weights and bias. So arrays `a'`, `inv'`, `feat'` whose row `p` is row `r` of `a`,
    `inv`, `feat`, with the same weights and bias, give at `(p, j)` the entry `(r, j)` of the whole layer: the two sums
    over the input channels agree term by term. -/
theorem linAt_of_row (a feat : (⟨2, ![N, K]⟩ : Shape).Idx → EReal) (inv : (⟨2, ![N, 1]⟩ : Shape).Idx → EReal)
    (a' feat' : (⟨2, ![n, K]⟩ : Shape).Idx → EReal) (inv' : (⟨2, ![n, 1]⟩ : Shape).Idx → EReal)
    (Wl Wr Wl' Wr' : (⟨2, ![K, C]⟩ : Shape).Idx → EReal) (b b' : (⟨1, ![C]⟩ : Shape).Idx → EReal)
    (r : Fin N) (p : Fin n) (j : Fin C)
    (ha : ∀ c : Fin K, a' (ix2 p c) = a (ix2 r c)) (hinv : inv' (ix2 p (0 : Fin 1)) = inv (ix2 r (0 : Fin 1)))
    (hfeat : ∀ c : Fin K, feat' (ix2 p c) = feat (ix2 r c)) (hWl : Wl' = Wl) (hWr : Wr' = Wr) (hb : b' = b) :
    linAt (scaleMul a' inv') feat' Wl' Wr' b' p j = linAt (scaleMul a inv) feat Wl Wr b r j := by
  subst hWl hWr hb
  have h1 : (∑ c : Fin K, scaleMul a' inv' (ix2 p c) * Wl' (ix2 c j)) = ∑ c : Fin K, scaleMul a inv (ix2 r c) * Wl' (ix2 c j) :=
    Finset.sum_congr rfl fun c _ => by rw [scaleMul_ix2, scaleMul_ix2, ha c, hinv]
  have h2 : (∑ c : Fin K, feat' (ix2 p c) * Wr' (ix2 c j)) = ∑ c : Fin K, feat (ix2 r c) * Wr' (ix2 c j) :=
    Finset.sum_congr rfl fun c _ => by rw [hfeat c]
  unfold linAt
  rw [h1, h2]

/-- Entry `(r, j)` of the row-wise log-softmax is computed from row `r` of its argument: a matrix `o'` whose row `p` is
    row `r` of `o` has the same row maximum and the same sum of exponentials there. -/
theorem lsmAt_of_row (o : (⟨2, ![N, C]⟩ : Shape).Idx → EReal) (o' : (⟨2, ![n, C]⟩ : Shape).Idx → EReal) (r : Fin N) (p : Fin n)
    (j : Fin C) (ho : ∀ k : Fin C, o' (ix2 p k) = o (ix2 r k)) : lsmAt o' p j = lsmAt o r j := by
  have hM : rowMax o' p = rowMax o r := by
    unfold rowMax
    exact congrArg (fun f => (Finset.univ : Finset (Fin C)).fold max negInfW f) (funext ho)
  have hS : (∑ k : Fin C, Ideal.exp (o' (ix2 p k) - rowMax o' p)) = ∑ k : Fin C, Ideal.exp (o (ix2 r k) - rowMax o r) :=
    Finset.sum_congr rfl fun k _ => by rw [ho k, hM]
  unfold lsmAt
  rw [hS, hM, ho j]

end Rows

/-! ## The first layer: 25 tiles of 2000 rows -/

section Layer1
variable (V : (c : Dev nD) → (b : Ref sig .tc) → Buf (Elt Ideal) ((c : Thread nD τ).loc b))

/-- The grid has 25 points, so a point's number is below 25. -/
theorem point_lt0 (t : Fin cfg0.N) : t.val < 25 := lt_of_lt_of_eq t.isLt N_0

/-- Where each block sits at point `t`, decided over the grid: the three row-tiled inputs and the output are at block
    row `t`, block column 0; the two weight matrices and the bias are at block 0 throughout. -/
theorem tiles0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 1) = 0
  ∧ win0_6.index t (0 : Fin 2) = t.val ∧ win0_6.index t (1 : Fin 2) = 0 :=
  (by decide +kernel : ∀ t : Fin grid0.N, _)

/-- Row `p` of point `t`'s block of the neighbourhood sums is row `2000·t + p` of the sums. -/
theorem agg_block0 (c : Dev nD) (t : Fin cfg0.N) (p : Fin 2000) (k : Fin 128) (h : 2000 * t.val + p.val < 50000) :
    (iblk0 V c 0 t : Vec Ideal S2000x128 .f32) (ix2 p k)
      = (V c main_v24 : S50000x128.Idx → EReal) (ix2 (⟨2000 * t.val + p.val, h⟩ : Fin 50000) k) := by
  obtain ⟨e0, e1, -⟩ := tiles0 t
  show V c main_v24 (((cfg0.win 0).blk t).view.emb (ix2 p k)) = V c main_v24 _
  refine congrArg (V c main_v24) ?_
  funext a; apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

/-- Row `p` of point `t`'s block of the reciprocal column is row `2000·t + p` of the column. -/
theorem inv_block0 (c : Dev nD) (t : Fin cfg0.N) (p : Fin 2000) (h : 2000 * t.val + p.val < 50000) :
    (iblk0 V c 1 t : Vec Ideal S2000x1 .f32) (ix2 p (0 : Fin 1))
      = (V c main_v12 : S50000x1.Idx → EReal) (ix2 (⟨2000 * t.val + p.val, h⟩ : Fin 50000) (0 : Fin 1)) := by
  obtain ⟨-, -, e0, e1, -⟩ := tiles0 t
  show V c main_v12 (((cfg0.win 1).blk t).view.emb (ix2 p (0 : Fin 1))) = V c main_v12 _
  refine congrArg (V c main_v12) ?_
  funext a; apply Fin.ext
  match a with
  | ⟨0, _⟩ => show win0_1.index t (0 : Fin 2) * 2000 + 1 * p.val = 2000 * t.val + p.val; omega
  | ⟨1, _⟩ => show win0_1.index t (1 : Fin 2) * 1 + 1 * (0 : Fin 1).val = (0 : Fin 1).val; omega

/-- Row `p` of point `t`'s block of the features is row `2000·t + p` of the features. -/
theorem feat_block0 (c : Dev nD) (t : Fin cfg0.N) (p : Fin 2000) (k : Fin 128) (h : 2000 * t.val + p.val < 50000) :
    (iblk0 V c 2 t : Vec Ideal S2000x128 .bf16) (ix2 p k)
      = (V c main_v13 : S50000x128.Idx → EReal) (ix2 (⟨2000 * t.val + p.val, h⟩ : Fin 50000) k) := by
  obtain ⟨-, -, -, -, e0, e1, -⟩ := tiles0 t
  show V c main_v13 (((cfg0.win 2).blk t).view.emb (ix2 p k)) = V c main_v13 _
  refine congrArg (V c main_v13) ?_
  funext a; apply Fin.ext
  match a with
  | ⟨0, _⟩ => show win0_2.index t (0 : Fin 2) * 2000 + 1 * p.val = 2000 * t.val + p.val; omega
  | ⟨1, _⟩ => show win0_2.index t (1 : Fin 2) * 128 + 1 * k.val = k.val; omega

/-- The weight matrix applied to the normalised sums is whole at every point. -/
theorem wl_block0 (c : Dev nD) (t : Fin cfg0.N) : (iblk0 V c 3 t : Vec Ideal S128x128 .f32) = V c main_arg2 := by
  obtain ⟨-, -, -, -, -, -, e0, e1, -⟩ := tiles0 t
  funext y
  show V c main_arg2 (((cfg0.win 3).blk t).view.emb y) = V c main_arg2 y
  refine congrArg (V c main_arg2) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The weight matrix applied to the node's own row is whole at every point. -/
theorem wr_block0 (c : Dev nD) (t : Fin cfg0.N) : (iblk0 V c 4 t : Vec Ideal S128x128 .f32) = V c main_arg3 := by
  obtain ⟨-, -, -, -, -, -, -, -, e0, e1, -⟩ := tiles0 t
  funext y
  show V c main_arg3 (((cfg0.win 4).blk t).view.emb y) = V c main_arg3 y
  refine congrArg (V c main_arg3) ?_
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The bias is whole at every point. -/
theorem bias_block0 (c : Dev nD) (t : Fin cfg0.N) : (iblk0 V c 5 t : Vec Ideal S128 .f32) = V c main_arg4 := by
  obtain ⟨-, -, -, -, -, -, -, -, -, -, e0, -⟩ := tiles0 t
  funext y
  show V c main_arg4 (((cfg0.win 5).blk t).view.emb y) = V c main_arg4 y
  refine congrArg (V c main_arg4) ?_
  funext a; apply Fin.ext
  match a with
  | ⟨0, _⟩ => show win0_5.index t (0 : Fin 1) * 128 + 1 * (y 0).val = (y 0).val; omega

/-- Entry `(p, q)` of point `t`'s block of the output array is entry `(2000·t + p, q)` of the array. -/
theorem out_row0 (t : Fin cfg0.N) (p : Fin 2000) (q : Fin 128) (h : 2000 * t.val + p.val < 50000) :
    ((cfg0.win 6).blk t).view.emb (ix2 p q) = (ix2 (⟨2000 * t.val + p.val, h⟩ : Fin 50000) q : S50000x128.Idx) := by
  obtain ⟨-, -, -, -, -, -, -, -, -, -, -, e0, e1⟩ := tiles0 t
  funext a; apply Fin.ext
  match a with
  | ⟨0, _⟩ => show win0_6.index t (0 : Fin 2) * 2000 + 1 * p.val = 2000 * t.val + p.val; omega
  | ⟨1, _⟩ => show win0_6.index t (1 : Fin 2) * 128 + 1 * q.val = q.val; omega

/-- What point `t` writes back is block `t` of the whole-array function: the body computes the layer of its
    blocks, and row `p` of those is row `2000·t + p` of the arrays. -/
theorem flushed0 (hpay : ∀ (x0 : Vec Ideal S2000x128 .f32) (x1 : Vec Ideal S2000x1 .f32) (x2 : Vec Ideal S2000x128 .bf16)
      (x3 x4 : Vec Ideal S128x128 .f32) (x5 : Vec Ideal S128 .f32) (p : Fin 2000) (q : Fin 128),
      k0_pay1 (F := Ideal) x0 x1 x2 x3 x4 x5 (ix2 p q) = Cert.Sage.linAt (Cert.Sage.scaleMul x0 x1) x2 x3 x4 x5 p q)
    (c : Dev nD) (t : Fin cfg0.N) :
    (dat0 (F := Ideal) V c).flushed 6 t = ((cfg0.win 6).blk t).view.read (Elt Ideal)
      (Cert.Sage.lin (Cert.Sage.scaleMul (V c main_v24) (V c main_v12)) (V c main_v13) (V c main_arg2) (V c main_arg3) (V c main_arg4)) := by
  show (cfg0.win 6).cut (grid0.coords t) ((dat0 V c).after 6 t) = _
  rw [after0_6]
  unfold out0_6
  rw [View.canon_unit_zero origin2]
  simp only [View.ld_unit_zero (S := S2000x128) origin2, View.ld_unit_zero (S := S2000x1) origin2, View.ld_unit_zero (S := S128x128) origin2, View.ld_unit_zero (S := S128) origin1]
  funext j
  obtain ⟨p, q, rfl⟩ : ∃ (p : Fin 2000) (q : Fin 128), j = ix2 p q := ⟨j 0, j 1, eq_ix2 j⟩
  have h : 2000 * t.val + p.val < 50000 := by have := point_lt0 t; have := p.isLt; omega
  show k0_pay1 (F := Ideal) (iblk0 V c 0 t) (iblk0 V c 1 t) (iblk0 V c 2 t) (iblk0 V c 3 t) (iblk0 V c 4 t) (iblk0 V c 5 t) (ix2 p q)
     = (Cert.Sage.lin (Cert.Sage.scaleMul (V c main_v24) (V c main_v12)) (V c main_v13) (V c main_arg2) (V c main_arg3) (V c main_arg4)) (((cfg0.win 6).blk t).view.emb (ix2 p q))
  refine (hpay _ _ _ _ _ _ p q).trans ?_
  refine (linAt_of_row (V c main_v24) (V c main_v13) (V c main_v12) _ _ _ (V c main_arg2) (V c main_arg3) _ _ (V c main_arg4) _
      (⟨2000 * t.val + p.val, h⟩ : Fin 50000) p q (fun k => agg_block0 V c t p k h) (inv_block0 V c t p h) (fun k => feat_block0 V c t p k h)
      (wl_block0 V c t) (wr_block0 V c t) (bias_block0 V c t)).trans ?_
  rw [out_row0 t p q h]
  exact (Cert.Sage.lin_ix2 _ _ _ _ _ _ q).symm

/-- An index of the output array is in point `t`'s block iff each coordinate is in the block's range on its axis. -/
theorem mem_block0 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v25).slice (win0_6.rect t)).set ↔ _
  rw [View.set_slice_whole, Rect.mem_set_unit]
  exact Iff.rfl

/-- Every entry of the output array is written: row `r` by the point `r / 2000`. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨-, -, -, -, -, -, -, -, -, -, -, e0, e1⟩ := tiles0 t
  refine ⟨t, flush0_6 t, ?_⟩
  rw [mem_block0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

end Layer1

/-- The first layer's output array after its region: the layer of the whole arrays the region found. -/
theorem layer1_arr (hpay : ∀ (x0 : Vec Ideal S2000x128 .f32) (x1 : Vec Ideal S2000x1 .f32) (x2 : Vec Ideal S2000x128 .bf16)
      (x3 x4 : Vec Ideal S128x128 .f32) (x5 : Vec Ideal S128 .f32) (p : Fin 2000) (q : Fin 128),
      k0_pay1 (F := Ideal) x0 x1 x2 x3 x4 x5 (ix2 p q) = Cert.Sage.linAt (Cert.Sage.scaleMul x0 x1) x2 x3 x4 x5 p q)
    (V : (c : Dev nD) → (b : Ref sig .tc) → Buf (Elt Ideal) ((c : Thread nD τ).loc b)) (c : Dev nD) :
    (dat0 (F := Ideal) V c).arrAt 6 cfg0.N
      = Cert.Sage.lin (Cert.Sage.scaleMul (V c main_v24) (V c main_v12)) (V c main_v13) (V c main_arg2) (V c main_arg3) (V c main_arg4) :=
  (dat0 (F := Ideal) V c).arrAt_eq_of_cover 6 _ (fun t _ => flushed0 V hpay c t) cover0

/-! ## The second layer: 25 tiles of 2000 rows, 40 output channels, the log-softmax outside -/

section Layer2
variable (V : (c : Dev nD) → (b : Ref sig .tc) → Buf (Elt Ideal) ((c : Thread nD τ).loc b))

/-- The grid has 25 points, so a point's number is below 25. -/
theorem point_lt1 (t : Fin cfg1.N) : t.val < 25 := lt_of_lt_of_eq t.isLt N_1

/-- Where each block sits at point `t`, decided over the grid: the three row-tiled inputs and the output are at block
    row `t`, block column 0; the two weight matrices and the bias are at block 0 throughout. -/
theorem tiles1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 1) = 0
  ∧ win1_6.index t (0 : Fin 2) = t.val ∧ win1_6.index t (1 : Fin 2) = 0 :=
  (by decide +kernel : ∀ t : Fin grid1.N, _)

/-- Row `p` of point `t`'s block of the neighbourhood sums is row `2000·t + p` of the sums. -/
theorem agg_block1 (c : Dev nD) (t : Fin cfg1.N) (p : Fin 2000) (k : Fin 128) (h : 2000 * t.val + p.val < 50000) :
    (iblk1 V c 0 t : Vec Ideal S2000x128 .f32) (ix2 p k)
      = (V c main_v36 : S50000x128.Idx → EReal) (ix2 (⟨2000 * t.val + p.val, h⟩ : Fin 50000) k) := by
  obtain ⟨e0, e1, -⟩ := tiles1 t
  show V c main_v36 (((cfg1.win 0).blk t).view.emb (ix2 p k)) = V c main_v36 _
  refine congrArg (V c main_v36) ?_
  funext a; apply Fin.ext
  match a with
  | ⟨0, _⟩ => show win1_0.index t (0 : Fin 2) * 2000 + 1 * p.val = 2000 * t.val + p.val; omega
  | ⟨1, _⟩ => show win1_0.index t (1 : Fin 2) * 128 + 1 * k.val = k.val; omega

/-- Row `p` of point `t`'s block of the reciprocal column is row `2000·t + p` of the column. -/
theorem inv_block1 (c : Dev nD) (t : Fin cfg1.N) (p : Fin 2000) (h : 2000 * t.val + p.val < 50000) :
    (iblk1 V c 1 t : Vec Ideal S2000x1 .f32) (ix2 p (0 : Fin 1))
      = (V c main_v12 : S50000x1.Idx → EReal) (ix2 (⟨2000 * t.val + p.val, h⟩ : Fin 50000) (0 : Fin 1)) := by
  obtain ⟨-, -, e0, e1, -⟩ := tiles1 t
  show V c main_v12 (((cfg1.win 1).blk t).view.emb (ix2 p (0 : Fin 1))) = V c main_v12 _
  refine congrArg (V c main_v12) ?_
  funext a; apply Fin.ext
  match a with
  | ⟨0, _⟩ => show win1_1.index t (0 : Fin 2) * 2000 + 1 * p.val = 2000 * t.val + p.val; omega
  | ⟨1, _⟩ => show win1_1.index t (1 : Fin 2) * 1 + 1 * (0 : Fin 1).val = (0 : Fin 1).val; omega

/-- Row `p` of point `t`'s block of the first layer's output is row `2000·t + p` of the first layer's output. -/
theorem hidden_block1 (c : Dev nD) (t : Fin cfg1.N) (p : Fin 2000) (k : Fin 128) (h : 2000 * t.val + p.val < 50000) :
    (iblk1 V c 2 t : Vec Ideal S2000x128 .bf16) (ix2 p k)
      = (V c main_v25 : S50000x128.Idx → EReal) (ix2 (⟨2000 * t.val + p.val, h⟩ : Fin 50000) k) := by
  obtain ⟨-, -, -, -, e0, e1, -⟩ := tiles1 t
  show V c main_v25 (((cfg1.win 2).blk t).view.emb (ix2 p k)) = V c main_v25 _
  refine congrArg (V c main_v25) ?_
  funext a; apply Fin.ext
  match a with
  | ⟨0, _⟩ => show win1_2.index t (0 : Fin 2) * 2000 + 1 * p.val = 2000 * t.val + p.val; omega
  | ⟨1, _⟩ => show win1_2.index t (1 : Fin 2) * 128 + 1 * k.val = k.val; omega

/-- The weight matrix applied to the normalised sums is whole at every point. -/
theorem wl_block1 (c : Dev nD) (t : Fin cfg1.N) : (iblk1 V c 3 t : Vec Ideal S128x40 .f32) = V c main_arg5 := by
  obtain ⟨-, -, -, -, -, -, e0, e1, -⟩ := tiles1 t
  funext y
  show V c main_arg5 (((cfg1.win 3).blk t).view.emb y) = V c main_arg5 y
  refine congrArg (V c main_arg5) ?_
  funext a; apply Fin.ext
  match a with
  | ⟨0, _⟩ => show win1_3.index t (0 : Fin 2) * 128 + 1 * (y 0).val = (y 0).val; omega
  | ⟨1, _⟩ => show win1_3.index t (1 : Fin 2) * 40 + 1 * (y 1).val = (y 1).val; omega

/-- The weight matrix applied to the node's own row is whole at every point. -/
theorem wr_block1 (c : Dev nD) (t : Fin cfg1.N) : (iblk1 V c 4 t : Vec Ideal S128x40 .f32) = V c main_arg6 := by
  obtain ⟨-, -, -, -, -, -, -, -, e0, e1, -⟩ := tiles1 t
  funext y
  show V c main_arg6 (((cfg1.win 4).blk t).view.emb y) = V c main_arg6 y
  refine congrArg (V c main_arg6) ?_
  funext a; apply Fin.ext
  match a with
  | ⟨0, _⟩ => show win1_4.index t (0 : Fin 2) * 128 + 1 * (y 0).val = (y 0).val; omega
  | ⟨1, _⟩ => show win1_4.index t (1 : Fin 2) * 40 + 1 * (y 1).val = (y 1).val; omega

/-- The bias is whole at every point. -/
theorem bias_block1 (c : Dev nD) (t : Fin cfg1.N) : (iblk1 V c 5 t : Vec Ideal S40 .f32) = V c main_arg7 := by
  obtain ⟨-, -, -, -, -, -, -, -, -, -, e0, -⟩ := tiles1 t
  funext y
  show V c main_arg7 (((cfg1.win 5).blk t).view.emb y) = V c main_arg7 y
  refine congrArg (V c main_arg7) ?_
  funext a; apply Fin.ext
  match a with
  | ⟨0, _⟩ => show win1_5.index t (0 : Fin 1) * 40 + 1 * (y 0).val = (y 0).val; omega

/-- Entry `(p, q)` of point `t`'s block of the output array is entry `(2000·t + p, q)` of the array. -/
theorem out_row1 (t : Fin cfg1.N) (p : Fin 2000) (q : Fin 40) (h : 2000 * t.val + p.val < 50000) :
    ((cfg1.win 6).blk t).view.emb (ix2 p q) = (ix2 (⟨2000 * t.val + p.val, h⟩ : Fin 50000) q : S50000x40.Idx) := by
  obtain ⟨-, -, -, -, -, -, -, -, -, -, -, e0, e1⟩ := tiles1 t
  funext a; apply Fin.ext
  match a with
  | ⟨0, _⟩ => show win1_6.index t (0 : Fin 2) * 2000 + 1 * p.val = 2000 * t.val + p.val; omega
  | ⟨1, _⟩ => show win1_6.index t (1 : Fin 2) * 40 + 1 * q.val = q.val; omega

/-- What point `t` writes back is block `t` of the whole-array function: the body computes the log-softmax of the layer of its
    blocks, and row `p` of those is row `2000·t + p` of the arrays. -/
theorem flushed1 (hpay : ∀ (x0 : Vec Ideal S2000x128 .f32) (x1 : Vec Ideal S2000x1 .f32) (x2 : Vec Ideal S2000x128 .bf16)
      (x3 x4 : Vec Ideal S128x40 .f32) (x5 : Vec Ideal S40 .f32) (p : Fin 2000) (q : Fin 40),
      k1_pay1 (F := Ideal) x0 x1 x2 x3 x4 x5 (ix2 p q) = Cert.Sage.lsmAt (Cert.Sage.lin (Cert.Sage.scaleMul x0 x1) x2 x3 x4 x5) p q)
    (c : Dev nD) (t : Fin cfg1.N) :
    (dat1 (F := Ideal) V c).flushed 6 t = ((cfg1.win 6).blk t).view.read (Elt Ideal)
      (Cert.Sage.lsm (Cert.Sage.lin (Cert.Sage.scaleMul (V c main_v36) (V c main_v12)) (V c main_v25) (V c main_arg5) (V c main_arg6) (V c main_arg7))) := by
  show (cfg1.win 6).cut (grid1.coords t) ((dat1 V c).after 6 t) = _
  rw [after1_6]
  unfold out1_6
  rw [View.canon_unit_zero origin2]
  simp only [View.ld_unit_zero (S := S2000x128) origin2, View.ld_unit_zero (S := S2000x1) origin2, View.ld_unit_zero (S := S128x40) origin2, View.ld_unit_zero (S := S40) origin1]
  funext j
  obtain ⟨p, q, rfl⟩ : ∃ (p : Fin 2000) (q : Fin 40), j = ix2 p q := ⟨j 0, j 1, eq_ix2 j⟩
  have h : 2000 * t.val + p.val < 50000 := by have := point_lt1 t; have := p.isLt; omega
  show k1_pay1 (F := Ideal) (iblk1 V c 0 t) (iblk1 V c 1 t) (iblk1 V c 2 t) (iblk1 V c 3 t) (iblk1 V c 4 t) (iblk1 V c 5 t) (ix2 p q)
     = (Cert.Sage.lsm (Cert.Sage.lin (Cert.Sage.scaleMul (V c main_v36) (V c main_v12)) (V c main_v25) (V c main_arg5) (V c main_arg6) (V c main_arg7))) (((cfg1.win 6).blk t).view.emb (ix2 p q))
  refine (hpay _ _ _ _ _ _ p q).trans ?_
  refine (lsmAt_of_row (Cert.Sage.lin (Cert.Sage.scaleMul (V c main_v36) (V c main_v12)) (V c main_v25) (V c main_arg5) (V c main_arg6) (V c main_arg7)) _ (⟨2000 * t.val + p.val, h⟩ : Fin 50000) p q fun k =>
    (Cert.Sage.lin_ix2 _ _ _ _ _ p k).trans ((linAt_of_row (V c main_v36) (V c main_v25) (V c main_v12) _ _ _ (V c main_arg5) (V c main_arg6) _ _ (V c main_arg7) _
      (⟨2000 * t.val + p.val, h⟩ : Fin 50000) p k (fun k => agg_block1 V c t p k h) (inv_block1 V c t p h) (fun k => hidden_block1 V c t p k h)
      (wl_block1 V c t) (wr_block1 V c t) (bias_block1 V c t)).trans (Cert.Sage.lin_ix2 _ _ _ _ _ _ k).symm)).trans ?_
  rw [out_row1 t p q h]
  exact (Cert.Sage.lsm_ix2 _ _ q).symm

/-- An index of the output array is in point `t`'s block iff each coordinate is in the block's range on its axis. -/
theorem mem_block1 (t : Fin cfg1.N) (i : S50000x40.Idx) :
    i ∈ ((cfg1.win 6).blk t).view.set ↔ ∀ a : Fin 2, win1_6.index t a * S2000x40.size a ≤ (i a).val ∧ (i a).val < win1_6.index t a * S2000x40.size a + S2000x40.size a := by
  show i ∈ ((View.whole main_v37).slice (win1_6.rect t)).set ↔ _
  rw [View.set_slice_whole, Rect.mem_set_unit]
  exact Iff.rfl

/-- Every entry of the output array is written: row `r` by the point `r / 2000`. -/
theorem cover1 (i : S50000x40.Idx) : ∃ t : Fin cfg1.N, (cfg1.win 6).flush t = true ∧ i ∈ ((cfg1.win 6).blk t).view.set := by
  have hi0 : (i 0).val < 50000 := (i 0).isLt
  have hi1 : (i 1).val < 40 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, -, -, -, -, -, -, -, e0, e1⟩ := tiles1 t
  refine ⟨t, flush1_6 t, ?_⟩
  rw [mem_block1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 40 ≤ (i 1).val ∧ (i 1).val < win1_6.index t (1 : Fin 2) * 40 + 40; omega

end Layer2

/-- The second layer's output array after its region: the row-wise log-softmax of the layer of the whole arrays the region found. -/
theorem layer2_arr (hpay : ∀ (x0 : Vec Ideal S2000x128 .f32) (x1 : Vec Ideal S2000x1 .f32) (x2 : Vec Ideal S2000x128 .bf16)
      (x3 x4 : Vec Ideal S128x40 .f32) (x5 : Vec Ideal S40 .f32) (p : Fin 2000) (q : Fin 40),
      k1_pay1 (F := Ideal) x0 x1 x2 x3 x4 x5 (ix2 p q) = Cert.Sage.lsmAt (Cert.Sage.lin (Cert.Sage.scaleMul x0 x1) x2 x3 x4 x5) p q)
    (V : (c : Dev nD) → (b : Ref sig .tc) → Buf (Elt Ideal) ((c : Thread nD τ).loc b)) (c : Dev nD) :
    (dat1 (F := Ideal) V c).arrAt 6 cfg1.N
      = Cert.Sage.lsm (Cert.Sage.lin (Cert.Sage.scaleMul (V c main_v36) (V c main_v12)) (V c main_v25) (V c main_arg5) (V c main_arg6) (V c main_arg7)) :=
  (dat1 (F := Ideal) V c).arrAt_eq_of_cover 6 _ (fun t _ => flushed1 V hpay c t) cover1

end Cert.KernelIdeal.LayerArrays

end
-- ==== Proof.KRun.lean ====
/-
  The idealized kernel's run with its result kept.

  @main is four segments: a stretch of host operations, the first Pallas region, a second stretch of host operations,
  the second region. The buffer contents at the segment boundaries are a fold from the launch memory (`W0 … W4` of the
  generated frame: a host stretch's operations applied, then a region's arrays at what its write-backs leave). Every
  weakly fair execution terminates with every unscoped buffer at the last boundary's contents; read at the eight
  arguments this is the frame claim, and read at the second region's output buffer it is the value this module keeps:
  the result buffer ends at `W4` there.
-/
import proofs.«112267_j24215025615234_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, with the
    result buffer at the last boundary's contents and the argument arrays as launched. -/
theorem run_value : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.KHost.lean ====
/-
  The idealized kernel's two stretches of host operations, as the formulas they compute — the same operations, in the
  same order and with the same literals, as the printed @main:

  • `src e`, `dst e`, `wsrc e`: the two rows of the edge list, and the sources with a negative index wrapped.
  • `xbf x`: the features changed to the narrower float format (the identity on exact values).
  • `aggr feat e`: for every node, the sum of `feat` over the sources of its incoming edges — a gather of rows in the
    narrow format, widened, then a scatter-add into zeros at the destinations.
  • `deg e`: the in-degrees (a scatter-add of ones); `inv e`: the column of reciprocals `1 / max (deg, 1)`.

  The first stretch (before the first Pallas region) leaves `aggr (xbf x) e`, `inv e`, `xbf x` and the two rows of the
  edge list; the second (between the regions) leaves `aggr h e` of the first region's result `h`. Each statement is from
  ARBITRARY incoming buffer contents `W`, for any float values.
-/
import proofs.«112267_j24215025615234_2_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-- The edges' sources: row 0 of the edge list. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destinations: row 1 of the edge list. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The sources with a negative index wrapped: `s < 0 ? s + 50000 : s`. -/
def wsrc (e : (⟨S2x800000, .i32⟩ : BufTy).Contents (Elt F)) : (⟨S800000, .i32⟩ : BufTy).Contents (Elt F) :=
  select (cmpi .slt (src (F := F) e) (broadcastInDim S800000 ![] bcast_S_S800000 (constantI S_ 32 0#32)))
    (addi (src (F := F) e) (broadcastInDim S800000 ![] bcast_S_S800000 (constantI S_ 32 50000#32))) (src (F := F) e)

/-- The features in the narrower float format. -/
def xbf (x : (⟨S50000x128, .f32⟩ : BufTy).Contents (Elt F)) : (⟨S50000x128, .bf16⟩ : BufTy).Contents (Elt F) :=
  truncf .bf16 x bitsLt_bf16_f32

/-- The neighbourhood sums: the rows of `feat` at the sources, widened, added into zeros at the destinations. -/
def aggr (feat : (⟨S50000x128, .bf16⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dst (F := F) e))
    (extf .f32 (Host.gather gather_S50000x128_S800000x1_S800000x128_1_0_n_n_0_1_1128 feat
      (broadcastInDim S800000x1 ![0] bcast_S800000_S800000x1_0 (wsrc (F := F) e))) bitsLt_bf16_f32)

/-- The in-degrees: ones added into zeros at the destinations. -/
def deg (e : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 (dst (F := F) e))
    (broadcastInDim S800000 ![] bcast_S_S800000 (constant S_ .f32 0x3F800000#32))

/-- The column of reciprocals of the in-degrees clamped below at `1`. -/
def inv (e : (⟨S2x800000, .i32⟩ : BufTy).Contents (Elt F)) : (⟨S50000x1, .f32⟩ : BufTy).Contents (Elt F) :=
  shapeCast _ (Host.divf (broadcastInDim S50000 ![] bcast_S_S50000 (constant S_ .f32 0x3F800000#32))
    (maximumf (deg (F := F) e) (broadcastInDim S50000 ![] bcast_S_S50000 (constant S_ .f32 0x3F800000#32)))) shapeCasts_S50000_S50000x1

variable (W : Valuation τ sig (Elt F))

/-! ## The stretch before the first region -/

theorem H0_v1 : after hostOps0 W (Proc.devRef .tc main_v1) = src (F := F) (W (Proc.devRef .tc main_arg1)) := by
  after_results_simp <;> rfl
theorem H0_v3 : after hostOps0 W (Proc.devRef .tc main_v3) = dst (F := F) (W (Proc.devRef .tc main_arg1)) := by
  after_results_simp <;> rfl
theorem H0_v12 : after hostOps0 W (Proc.devRef .tc main_v12) = inv (F := F) (W (Proc.devRef .tc main_arg1)) := by
  after_results_simp <;> rfl
theorem H0_v13 : after hostOps0 W (Proc.devRef .tc main_v13) = xbf (F := F) (W (Proc.devRef .tc main_arg0)) := by
  after_results_simp <;> rfl
set_option maxHeartbeats 4000000 in
theorem H0_v24 : after hostOps0 W (Proc.devRef .tc main_v24)
    = aggr (F := F) (xbf (W (Proc.devRef .tc main_arg0))) (W (Proc.devRef .tc main_arg1)) := by
  after_results_simp <;> rfl
theorem H0_arg2 : after hostOps0 W (Proc.devRef .tc main_arg2) = W (Proc.devRef .tc main_arg2) := by after_results_simp <;> rfl
theorem H0_arg3 : after hostOps0 W (Proc.devRef .tc main_arg3) = W (Proc.devRef .tc main_arg3) := by after_results_simp <;> rfl
theorem H0_arg4 : after hostOps0 W (Proc.devRef .tc main_arg4) = W (Proc.devRef .tc main_arg4) := by after_results_simp <;> rfl
theorem H0_arg5 : after hostOps0 W (Proc.devRef .tc main_arg5) = W (Proc.devRef .tc main_arg5) := by after_results_simp <;> rfl
theorem H0_arg6 : after hostOps0 W (Proc.devRef .tc main_arg6) = W (Proc.devRef .tc main_arg6) := by after_results_simp <;> rfl
theorem H0_arg7 : after hostOps0 W (Proc.devRef .tc main_arg7) = W (Proc.devRef .tc main_arg7) := by after_results_simp <;> rfl

/-! ## The stretch between the regions: it reads the first region's result and the two rows of the edge list -/

set_option maxHeartbeats 4000000 in
theorem H1_v36 (e : (⟨S2x800000, .i32⟩ : BufTy).Contents (Elt F))
    (h1 : W (Proc.devRef .tc main_v1) = src (F := F) e) (h3 : W (Proc.devRef .tc main_v3) = dst (F := F) e) :
    after hostOps1 W (Proc.devRef .tc main_v36) = aggr (F := F) (W (Proc.devRef .tc main_v25)) e := by
  after_results_simp
  rw [h1, h3]
  rfl
theorem H1_v12 : after hostOps1 W (Proc.devRef .tc main_v12) = W (Proc.devRef .tc main_v12) := by after_results_simp <;> rfl
theorem H1_v25 : after hostOps1 W (Proc.devRef .tc main_v25) = W (Proc.devRef .tc main_v25) := by after_results_simp <;> rfl
theorem H1_arg5 : after hostOps1 W (Proc.devRef .tc main_arg5) = W (Proc.devRef .tc main_arg5) := by after_results_simp <;> rfl
theorem H1_arg6 : after hostOps1 W (Proc.devRef .tc main_arg6) = W (Proc.devRef .tc main_arg6) := by after_results_simp <;> rfl
theorem H1_arg7 : after hostOps1 W (Proc.devRef .tc main_arg7) = W (Proc.devRef .tc main_arg7) := by after_results_simp <;> rfl

end Cert.KernelIdeal.KHost

end
-- ==== Proof.KValue.lean ====
/-
  The idealized kernel's result buffer as one formula of the arguments, at the exact values.

  The last boundary's contents at the result buffer are what the second region's write-backs leave: the log-softmax of
  the clamped layer of the arrays the region found. Those are: the neighbourhood sums of the first region's result `h`
  (the stretch between the regions), the column of reciprocal clamped in-degrees (written before the first region and
  touched by nothing since), `h` itself, and the second layer's weights and bias (arguments). And `h` is what the first
  region's write-backs leave: the clamped layer of the neighbourhood sums of the features, the same column, the features
  and the first layer's weights and bias.

  The two facts "a region's write-backs leave the layer of the arrays it found" are taken as hypotheses here (`hL1`,
  `hL2`); they are proved from the bodies' stored values block by block.
-/
import proofs.«112267_j24215025615234_2_alg».proof.Proof.KRun
import proofs.«112267_j24215025615234_2_alg».proof.Proof.KHost
import proofs.«112267_j24215025615234_2_alg».proof.Proof.Spec

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo Idealize.ShloMosaic.ValueIdx
open Cert.KernelIdeal.KHost

/-- The first layer's result: the clamped layer of the neighbourhood sums times the reciprocal column. -/
def hidden (x : (⟨S50000x128, .f32⟩ : BufTy).Contents (Elt Ideal)) (e : (⟨S2x800000, .i32⟩ : BufTy).Contents (Elt Ideal))
    (W1l W1r : (⟨S128x128, .f32⟩ : BufTy).Contents (Elt Ideal)) (b1 : (⟨S128, .f32⟩ : BufTy).Contents (Elt Ideal)) :
    (⟨S50000x128, .bf16⟩ : BufTy).Contents (Elt Ideal) :=
  Cert.Sage.lin (Cert.Sage.scaleMul (aggr (F := Ideal) (xbf x) e) (inv (F := Ideal) e)) (xbf (F := Ideal) x) W1l W1r b1

/-- The kernel's result: the log-softmax of the clamped second layer of the first layer's result. -/
def result (x : (⟨S50000x128, .f32⟩ : BufTy).Contents (Elt Ideal)) (e : (⟨S2x800000, .i32⟩ : BufTy).Contents (Elt Ideal))
    (W1l W1r : (⟨S128x128, .f32⟩ : BufTy).Contents (Elt Ideal)) (b1 : (⟨S128, .f32⟩ : BufTy).Contents (Elt Ideal))
    (W2l W2r : (⟨S128x40, .f32⟩ : BufTy).Contents (Elt Ideal)) (b2 : (⟨S40, .f32⟩ : BufTy).Contents (Elt Ideal)) :
    (⟨S50000x40, .f32⟩ : BufTy).Contents (Elt Ideal) :=
  Cert.Sage.lsm (Cert.Sage.lin (Cert.Sage.scaleMul (aggr (F := Ideal) (hidden x e W1l W1r b1) e) (inv (F := Ideal) e))
    (hidden x e W1l W1r b1) W2l W2r b2)

variable (m : (ℓ : Loc nD τ sig) → Buf (Elt Ideal) ℓ) (ρ : Dev nD → PrngReg) (c : Dev nD)

/-! ## After the first stretch -/

theorem W1_v1 : W1 m ρ c (Proc.devRef .tc main_v1) = src (F := Ideal) (m ((c : Thread nD τ).loc main_arg1)) := H0_v1 (W0 m ρ c)
theorem W1_v3 : W1 m ρ c (Proc.devRef .tc main_v3) = dst (F := Ideal) (m ((c : Thread nD τ).loc main_arg1)) := H0_v3 (W0 m ρ c)
theorem W1_v12 : W1 m ρ c (Proc.devRef .tc main_v12) = inv (F := Ideal) (m ((c : Thread nD τ).loc main_arg1)) := H0_v12 (W0 m ρ c)
theorem W1_v13 : W1 m ρ c (Proc.devRef .tc main_v13) = xbf (F := Ideal) (m ((c : Thread nD τ).loc main_arg0)) := H0_v13 (W0 m ρ c)
theorem W1_v24 : W1 m ρ c (Proc.devRef .tc main_v24)
    = aggr (F := Ideal) (xbf (m ((c : Thread nD τ).loc main_arg0))) (m ((c : Thread nD τ).loc main_arg1)) := H0_v24 (W0 m ρ c)
theorem W1_arg2 : W1 m ρ c (Proc.devRef .tc main_arg2) = m ((c : Thread nD τ).loc main_arg2) := H0_arg2 (W0 m ρ c)
theorem W1_arg3 : W1 m ρ c (Proc.devRef .tc main_arg3) = m ((c : Thread nD τ).loc main_arg3) := H0_arg3 (W0 m ρ c)
theorem W1_arg4 : W1 m ρ c (Proc.devRef .tc main_arg4) = m ((c : Thread nD τ).loc main_arg4) := H0_arg4 (W0 m ρ c)
theorem W1_arg5 : W1 m ρ c (Proc.devRef .tc main_arg5) = m ((c : Thread nD τ).loc main_arg5) := H0_arg5 (W0 m ρ c)
theorem W1_arg6 : W1 m ρ c (Proc.devRef .tc main_arg6) = m ((c : Thread nD τ).loc main_arg6) := H0_arg6 (W0 m ρ c)
theorem W1_arg7 : W1 m ρ c (Proc.devRef .tc main_arg7) = m ((c : Thread nD τ).loc main_arg7) := H0_arg7 (W0 m ρ c)

/-! ## After the first region -/

section
variable (hL1 : ∀ (V : (c : Dev nD) → (b : Ref sig .tc) → Buf (Elt Ideal) ((c : Thread nD τ).loc b)) (c : Dev nD),
    (dat0 (F := Ideal) V c).arrAt 6 cfg0.N
      = Cert.Sage.lin (Cert.Sage.scaleMul (V c main_v24) (V c main_v12)) (V c main_v13) (V c main_arg2) (V c main_arg3) (V c main_arg4))
include hL1

/-- The first region's output array ends at the first layer's result. -/
theorem W2_v25 : W2 m ρ c (Proc.devRef .tc main_v25)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 6).trans ((hL1 (V1 m ρ) c).trans ?_)
  show Cert.Sage.lin (Cert.Sage.scaleMul (W1 m ρ c (Proc.devRef .tc main_v24)) (W1 m ρ c (Proc.devRef .tc main_v12)))
      (W1 m ρ c (Proc.devRef .tc main_v13)) (W1 m ρ c (Proc.devRef .tc main_arg2)) (W1 m ρ c (Proc.devRef .tc main_arg3))
      (W1 m ρ c (Proc.devRef .tc main_arg4)) = _
  rw [W1_v24, W1_v12, W1_v13, W1_arg2, W1_arg3, W1_arg4]
  rfl

end

theorem W2_v1 : W2 m ρ c (Proc.devRef .tc main_v1) = src (F := Ideal) (m ((c : Thread nD τ).loc main_arg1)) :=
  (W2_of_ne m ρ c main_v1 (by decide)).trans (W1_v1 m ρ c)
theorem W2_v3 : W2 m ρ c (Proc.devRef .tc main_v3) = dst (F := Ideal) (m ((c : Thread nD τ).loc main_arg1)) :=
  (W2_of_ne m ρ c main_v3 (by decide)).trans (W1_v3 m ρ c)
theorem W2_v12 : W2 m ρ c (Proc.devRef .tc main_v12) = inv (F := Ideal) (m ((c : Thread nD τ).loc main_arg1)) :=
  (W2_arr m ρ c 1).trans (((dat0 (V1 m ρ) c).arrAt_in 1 rfl cfg0.N).trans ((A_eq0 (V1 m ρ) c 1).trans (W1_v12 m ρ c)))
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)

/-! ## After the second stretch, and the result -/

section
variable (hL1 : ∀ (V : (c : Dev nD) → (b : Ref sig .tc) → Buf (Elt Ideal) ((c : Thread nD τ).loc b)) (c : Dev nD),
    (dat0 (F := Ideal) V c).arrAt 6 cfg0.N
      = Cert.Sage.lin (Cert.Sage.scaleMul (V c main_v24) (V c main_v12)) (V c main_v13) (V c main_arg2) (V c main_arg3) (V c main_arg4))
include hL1

theorem W3_v25 : W3 m ρ c (Proc.devRef .tc main_v25)
    = hidden (m ((c : Thread nD τ).loc main_arg0)) (m ((c : Thread nD τ).loc main_arg1)) (m ((c : Thread nD τ).loc main_arg2))
        (m ((c : Thread nD τ).loc main_arg3)) (m ((c : Thread nD τ).loc main_arg4)) :=
  (H1_v25 (W2 m ρ c)).trans (W2_v25 m ρ c hL1)

/-- The second region finds the neighbourhood sums of the first layer's result. -/
theorem W3_v36 : W3 m ρ c (Proc.devRef .tc main_v36)
    = aggr (F := Ideal) (hidden (m ((c : Thread nD τ).loc main_arg0)) (m ((c : Thread nD τ).loc main_arg1)) (m ((c : Thread nD τ).loc main_arg2))
        (m ((c : Thread nD τ).loc main_arg3)) (m ((c : Thread nD τ).loc main_arg4))) (m ((c : Thread nD τ).loc main_arg1)) :=
  (H1_v36 (W2 m ρ c) (m ((c : Thread nD τ).loc main_arg1)) (W2_v1 m ρ c) (W2_v3 m ρ c)).trans
    (congrArg (fun f => aggr (F := Ideal) f (m ((c : Thread nD τ).loc main_arg1))) (W2_v25 m ρ c hL1))

end

theorem W3_v12 : W3 m ρ c (Proc.devRef .tc main_v12) = inv (F := Ideal) (m ((c : Thread nD τ).loc main_arg1)) :=
  (H1_v12 (W2 m ρ c)).trans (W2_v12 m ρ c)
theorem W3_arg5 : W3 m ρ c (Proc.devRef .tc main_arg5) = m ((c : Thread nD τ).loc main_arg5) := (H1_arg5 (W2 m ρ c)).trans (W2_arg5 m ρ c)
theorem W3_arg6 : W3 m ρ c (Proc.devRef .tc main_arg6) = m ((c : Thread nD τ).loc main_arg6) := (H1_arg6 (W2 m ρ c)).trans (W2_arg6 m ρ c)
theorem W3_arg7 : W3 m ρ c (Proc.devRef .tc main_arg7) = m ((c : Thread nD τ).loc main_arg7) := (H1_arg7 (W2 m ρ c)).trans (W2_arg7 m ρ c)

/-- THE RESULT BUFFER at the last boundary: the kernel's formula of the arguments. -/
theorem W4_v37
    (hL1 : ∀ (V : (c : Dev nD) → (b : Ref sig .tc) → Buf (Elt Ideal) ((c : Thread nD τ).loc b)) (c : Dev nD),
      (dat0 (F := Ideal) V c).arrAt 6 cfg0.N
        = Cert.Sage.lin (Cert.Sage.scaleMul (V c main_v24) (V c main_v12)) (V c main_v13) (V c main_arg2) (V c main_arg3) (V c main_arg4))
    (hL2 : ∀ (V : (c : Dev nD) → (b : Ref sig .tc) → Buf (Elt Ideal) ((c : Thread nD τ).loc b)) (c : Dev nD),
      (dat1 (F := Ideal) V c).arrAt 6 cfg1.N
        = Cert.Sage.lsm (Cert.Sage.lin (Cert.Sage.scaleMul (V c main_v36) (V c main_v12)) (V c main_v25) (V c main_arg5) (V c main_arg6) (V c main_arg7))) :
    W4 m ρ c (Proc.devRef .tc main_v37)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W4_arr m ρ c 6).trans ((hL2 (V3 m ρ) c).trans ?_)
  show Cert.Sage.lsm (Cert.Sage.lin (Cert.Sage.scaleMul (W3 m ρ c (Proc.devRef .tc main_v36)) (W3 m ρ c (Proc.devRef .tc main_v12)))
      (W3 m ρ c (Proc.devRef .tc main_v25)) (W3 m ρ c (Proc.devRef .tc main_arg5)) (W3 m ρ c (Proc.devRef .tc main_arg6))
      (W3 m ρ c (Proc.devRef .tc main_arg7))) = _
  rw [W3_v36 m ρ c hL1, W3_v12, W3_v25 m ρ c hL1, W3_arg5, W3_arg6, W3_arg7]
  rfl

end Cert.KernelIdeal.KValue

end
-- ==== Proof.HostTerms.lean ====
/-
  The reference program's host operations, grouped into the formulas they compute — the same operations, in the same
  order and with the same literals, as the printed @main, named by what they mean:

  • `src e`, `dst e`: the two rows of the edge list; `wsrc e`: the sources with a negative index wrapped by the node count.
  • `aggr feat e`: for every node, the sum of `feat` over the sources of its incoming edges (a gather of rows, then a
    scatter-add into zeros at the destinations).
  • `deg e`: for every node, the number of its incoming edges (a scatter-add of ones); `dmax e`: that count clamped below at 1.
  • `pre… feat e Wl Wr b`: `(aggr feat e / dmax e) · Wl + feat · Wr + b`; `relu…`: the maximum with zero.
  • `lsmH o`: the row-wise log-softmax as the host computes it: the row maximum (reduced from −∞ and then once more
    joined with −∞), the shifted entries, their exponentials' row sum, its logarithm subtracted.
-/
import proofs.«112267_j24215025615234_2_alg».proof.Proof.Gen.ReferenceIdeal

noncomputable section

namespace Cert.ReferenceIdeal.HostTerms

open Cert.ReferenceIdeal Cert.ReferenceIdeal.Gen Idealize.ShloMosaic

variable {F : FTy → Type} [FloatOps F]

/-- The edges' sources: row 0 of the edge list. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destinations: row 1 of the edge list. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The sources with a negative index wrapped: `s < 0 ? s + 50000 : s`. -/
def wsrc (e : (⟨S2x800000, .i32⟩ : BufTy).Contents (Elt F)) : (⟨S800000, .i32⟩ : BufTy).Contents (Elt F) :=
  select (cmpi .slt (src (F := F) e) (broadcastInDim S800000 ![] bcast_S_S800000 (constantI S_ 32 0#32)))
    (addi (src (F := F) e) (broadcastInDim S800000 ![] bcast_S_S800000 (constantI S_ 32 50000#32))) (src (F := F) e)

/-- The neighbourhood sums: the rows of `feat` at the sources, added into zeros at the destinations. -/
def aggr (feat : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dst (F := F) e))
    (Host.gather gather_S50000x128_S800000x1_S800000x128_1_0_n_n_0_1_1128 feat
      (broadcastInDim S800000x1 ![0] bcast_S800000_S800000x1_0 (wsrc (F := F) e)))

/-- The in-degrees: ones added into zeros at the destinations. -/
def deg (e : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 (dst (F := F) e))
    (broadcastInDim S800000 ![] bcast_S_S800000 (constant S_ .f32 0x3F800000#32))

/-- The in-degrees clamped below at `1`. -/
def dmax (e : (⟨S2x800000, .i32⟩ : BufTy).Contents (Elt F)) : (⟨S50000, .f32⟩ : BufTy).Contents (Elt F) :=
  maximumf (deg (F := F) e) (broadcastInDim S50000 ![] bcast_S_S50000 (constant S_ .f32 0x3F800000#32))

/-- The mean aggregate: the neighbourhood sums divided, row by row, by the clamped in-degree. -/
def mean (feat : (⟨S50000x128, .f32⟩ : BufTy).Contents (Elt F)) (e : (⟨S2x800000, .i32⟩ : BufTy).Contents (Elt F)) :
    (⟨S50000x128, .f32⟩ : BufTy).Contents (Elt F) :=
  Host.divf (aggr feat e)
    (broadcastInDim S50000x128 ![0, 1] bcast_S50000x1_S50000x128_0_1 (broadcastInDim S50000x1 ![0] bcast_S50000_S50000x1_0 (dmax (F := F) e)))

/-- The first layer before its clamp: `mean · Wl + feat · Wr + b`, 128 output channels. -/
def pre1 (feat : (⟨S50000x128, .f32⟩ : BufTy).Contents (Elt F)) (e : (⟨S2x800000, .i32⟩ : BufTy).Contents (Elt F))
    (Wl Wr : (⟨S128x128, .f32⟩ : BufTy).Contents (Elt F)) (b : (⟨S128, .f32⟩ : BufTy).Contents (Elt F)) :
    (⟨S50000x128, .f32⟩ : BufTy).Contents (Elt F) :=
  addf (addf (Host.dotGeneral dot_S50000x128_S128x128_S50000x128_1_0_0_1_n_n none (mean feat e) Wl)
      (Host.dotGeneral dot_S50000x128_S128x128_S50000x128_1_0_0_1_n_n none feat Wr))
    (broadcastInDim S50000x128 ![0, 1] bcast_S1x128_S50000x128_0_1 (broadcastInDim S1x128 ![1] bcast_S128_S1x128_1 b))

/-- The clamp at zero, 128 channels. -/
def relu1 (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- The second layer before its clamp: `mean · Wl + feat · Wr + b`, 40 output channels. -/
def pre2 (feat : (⟨S50000x128, .f32⟩ : BufTy).Contents (Elt F)) (e : (⟨S2x800000, .i32⟩ : BufTy).Contents (Elt F))
    (Wl Wr : (⟨S128x40, .f32⟩ : BufTy).Contents (Elt F)) (b : (⟨S40, .f32⟩ : BufTy).Contents (Elt F)) :
    (⟨S50000x40, .f32⟩ : BufTy).Contents (Elt F) :=
  addf (addf (Host.dotGeneral dot_S50000x128_S128x40_S50000x40_1_0_0_1_n_n none (mean feat e) Wl)
      (Host.dotGeneral dot_S50000x128_S128x40_S50000x40_1_0_0_1_n_n none feat Wr))
    (broadcastInDim S50000x40 ![0, 1] bcast_S1x40_S50000x40_0_1 (broadcastInDim S1x40 ![1] bcast_S40_S1x40_1 b))

/-- The clamp at zero, 40 channels. -/
def relu2 (x : (⟨S50000x40, .f32⟩ : BufTy).Contents (Elt F)) : (⟨S50000x40, .f32⟩ : BufTy).Contents (Elt F) :=
  maximumf x (broadcastInDim S50000x40 ![] bcast_S_S50000x40 (constant S_ .f32 0x00000000#32))

/-- The row maximum as the host takes it: reduced from −∞, then joined with −∞ once more. -/
def rowMaxH (x : (⟨S50000x40, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf x (constant S_ .f32 0xFF800000#32) reducesTo_S50000x40_S50000_d1 h_S_)

/-- The entries shifted by their row's maximum. -/
def shiftH (x : (⟨S50000x40, .f32⟩ : BufTy).Contents (Elt F)) : (⟨S50000x40, .f32⟩ : BufTy).Contents (Elt F) :=
  subf x (broadcastInDim S50000x40 ![0, 1] bcast_S50000x1_S50000x40_0_1 (broadcastInDim S50000x1 ![0] bcast_S50000_S50000x1_0 (rowMaxH (F := F) x)))

/-- The row-wise log-softmax as the host computes it. -/
def lsmH (x : (⟨S50000x40, .f32⟩ : BufTy).Contents (Elt F)) : (⟨S50000x40, .f32⟩ : BufTy).Contents (Elt F) :=
  subf (shiftH (F := F) x)
    (broadcastInDim S50000x40 ![0, 1] bcast_S50000x1_S50000x40_0_1
      (Host.log (broadcastInDim S50000x1 ![0] bcast_S50000_S50000x1_0
        (Host.reduceAdd (Host.exp (shiftH (F := F) x)) (constant S_ .f32 0x00000000#32) reducesTo_S50000x40_S50000_d1 h_S_))))

end Cert.ReferenceIdeal.HostTerms

end
-- ==== Proof.LibTypedRef.lean ====
/-
  Typed references and the transport of contents along their type equation.

  A function the tracer outlines (relu, clip, where, …) is printed once over typed references: a reference to a buffer
  together with the equation "this buffer's type is the value's type". Every operation of such a function reads its operands
  and writes its result through that equation: contents at the value's type are transported to contents of the buffer and
  back. For a literal reference the equation holds by computation and the transport is the identity, but a proof should not
  ask Lean to compute that on a full-size program: stated once over a VARIABLE typed reference, where the equation can be
  eliminated, the three facts below say that the transport changes nothing, and they apply to any literal reference by
  instantiation. With them a goal left by reading an outlined function's operations,
      y.toBuf (f (a.ofBuf A) (b.ofBuf (b.toBuf B))) = g,
  becomes `f A' B = g` by `eq_of_heq ((toBuf_heq _ _).trans (heq_of_eq ?_))`, `rw [ofBuf_toBuf]`, and
  `eq_of_heq ((ofBuf_heq _ _).trans (heq_of_eq hA))` for a known `hA : A = A'`.
-/
import Idealize.ShloMosaic.Lib.StableHlo

noncomputable section

namespace Cert.Lib.TypedRef

open Idealize.ShloMosaic Idealize.ShloMosaic.StableHlo

variable {sig : RefSig} {Val : EltTy → Type} {T : BufTy}

/-- Contents written through a typed reference are, up to the types' equation, the contents given. -/
theorem toBuf_heq (x : TRef sig T) (v : T.Contents Val) : HEq (x.toBuf v) v := by
  obtain ⟨r, h, h1, h2⟩ := x
  subst h
  rfl

/-- Contents read through a typed reference are, up to the types' equation, the buffer's contents. -/
theorem ofBuf_heq (x : TRef sig T) (v : x.ref.ty.Contents Val) : HEq (x.ofBuf v) v := by
  obtain ⟨r, h, h1, h2⟩ := x
  subst h
  rfl

/-- Reading back what was written through the same typed reference gives the contents written. -/
theorem ofBuf_toBuf (x : TRef sig T) (v : T.Contents Val) : x.ofBuf (x.toBuf v) = v :=
  eq_of_heq ((ofBuf_heq x _).trans (toBuf_heq x v))

/-- Writing what was read through the same typed reference gives the buffer's contents. -/
theorem toBuf_ofBuf (x : TRef sig T) (v : x.ref.ty.Contents Val) : x.toBuf (x.ofBuf v) = v :=
  eq_of_heq ((toBuf_heq x _).trans (ofBuf_heq x v))

end Cert.Lib.TypedRef

end
-- ==== Proof.LibAfterAppend.lean ====
/-
  A straight line of host operations, evaluated in pieces.

  The buffer contents after a line of host operations are a fold of the operations' results over the incoming contents.
  The fold over a concatenation is the fold over the second list of the fold over the first, so a long line can be cut
  into consecutive pieces and each piece evaluated from ARBITRARY incoming contents `W` — a short evaluation with small
  terms — and the pieces composed by rewriting. Library-only; any element values, any reference signature.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lines run one after the other are the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Five consecutive pieces. -/
theorem after_append5 (a b c d e : List (HloOp τ sig Val)) (V : Valuation τ sig Val) :
    after (a ++ (b ++ (c ++ (d ++ e)))) V = after e (after d (after c (after b (after a V)))) := by
  rw [after_append, after_append, after_append, after_append]

end Cert.LibAfterAppend

end
-- ==== Proof.RefRun.lean ====
/-
  The reference program's run, read back as one formula of the arguments.

  The program is a straight line of 87 host operations. Its final buffer contents are the fold of the operations'
  results over the launch contents; the fold over a concatenation is the fold over the second list of the fold over
  the first, so it is evaluated in five consecutive pieces, each from ARBITRARY incoming contents `W`:

  • the first layer's operations leave `mean · W1l + x · W1r + b1` (before the clamp) and the two rows of the edge list;
  • the first clamp leaves the first layer's result `h`;
  • the second layer's operations, reading `h` and the two rows of the edge list, leave `mean · W2l + h · W2r + b2`;
  • the second clamp; the row-wise log-softmax.

  Nothing here is about extended reals: every statement holds for any float values.
-/
import proofs.«112267_j24215025615234_2_alg».proof.Proof.RefOps
import proofs.«112267_j24215025615234_2_alg».proof.Proof.HostTerms
import proofs.«112267_j24215025615234_2_alg».proof.Proof.LibTypedRef
import proofs.«112267_j24215025615234_2_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.HostTerms

variable {F : FTy → Type} [FloatOps F]

variable (W : Valuation τ sig (Elt F))

/-! ## The first layer's operations -/

theorem A_v1 : after opsA W (Proc.devRef .tc main_v1) = src (F := F) (W (Proc.devRef .tc main_arg1)) := by
  after_results_simp <;> rfl

theorem A_v3 : after opsA W (Proc.devRef .tc main_v3) = dst (F := F) (W (Proc.devRef .tc main_arg1)) := by
  after_results_simp <;> rfl

set_option maxHeartbeats 4000000 in
theorem A_v28 : after opsA W (Proc.devRef .tc main_v28)
    = pre1 (F := F) (W (Proc.devRef .tc main_arg0)) (W (Proc.devRef .tc main_arg1)) (W (Proc.devRef .tc main_arg2))
        (W (Proc.devRef .tc main_arg3)) (W (Proc.devRef .tc main_arg4)) := by
  after_results_simp <;> rfl

theorem A_arg5 : after opsA W (Proc.devRef .tc main_arg5) = W (Proc.devRef .tc main_arg5) := by after_results_simp <;> rfl
theorem A_arg6 : after opsA W (Proc.devRef .tc main_arg6) = W (Proc.devRef .tc main_arg6) := by after_results_simp <;> rfl
theorem A_arg7 : after opsA W (Proc.devRef .tc main_arg7) = W (Proc.devRef .tc main_arg7) := by after_results_simp <;> rfl

/-! ## The first clamp -/

theorem B_v29 : after opsB W (Proc.devRef .tc main_v29) = relu1 (F := F) (W (Proc.devRef .tc main_v28)) := by
  after_results_simp <;> rfl

theorem B_v1 : after opsB W (Proc.devRef .tc main_v1) = W (Proc.devRef .tc main_v1) := by after_results_simp <;> rfl
theorem B_v3 : after opsB W (Proc.devRef .tc main_v3) = W (Proc.devRef .tc main_v3) := by after_results_simp <;> rfl
theorem B_arg5 : after opsB W (Proc.devRef .tc main_arg5) = W (Proc.devRef .tc main_arg5) := by after_results_simp <;> rfl
theorem B_arg6 : after opsB W (Proc.devRef .tc main_arg6) = W (Proc.devRef .tc main_arg6) := by after_results_simp <;> rfl
theorem B_arg7 : after opsB W (Proc.devRef .tc main_arg7) = W (Proc.devRef .tc main_arg7) := by after_results_simp <;> rfl

/-! ## The second layer's operations: they read the first layer's result and the two rows of the edge list -/

set_option maxHeartbeats 4000000 in
theorem C_v54 (e : (⟨S2x800000, .i32⟩ : BufTy).Contents (Elt F))
    (h1 : W (Proc.devRef .tc main_v1) = src (F := F) e) (h3 : W (Proc.devRef .tc main_v3) = dst (F := F) e) :
    after opsC W (Proc.devRef .tc main_v54)
      = pre2 (F := F) (W (Proc.devRef .tc main_v29)) e (W (Proc.devRef .tc main_arg5)) (W (Proc.devRef .tc main_arg6))
          (W (Proc.devRef .tc main_arg7)) := by
  after_results_simp
  rw [h1, h3]
  rfl

/-! ## The second clamp and the log-softmax -/

theorem D_v55 : after opsD W (Proc.devRef .tc main_v55) = relu2 (F := F) (W (Proc.devRef .tc main_v54)) := by
  after_results_simp <;> rfl

/-- The called function's operations write and read their intermediate values through typed references, which leaves a
    pair of mutually inverse casts around each of them; the pairs cancel, and what is left is the formula. -/
theorem E_v56 : after opsE W (Proc.devRef .tc main_v56) = lsmH (F := F) (W (Proc.devRef .tc main_v55)) := by
  after_results_simp
  simp only [Cert.Lib.TypedRef.ofBuf_toBuf]
  rfl

/-! ## The whole line -/

/-- The reference's result as one formula of the arguments: the log-softmax of the clamped second layer of the clamped
    first layer. -/
def result (x : (⟨S50000x128, .f32⟩ : BufTy).Contents (Elt F)) (e : (⟨S2x800000, .i32⟩ : BufTy).Contents (Elt F))
    (W1l W1r : (⟨S128x128, .f32⟩ : BufTy).Contents (Elt F)) (b1 : (⟨S128, .f32⟩ : BufTy).Contents (Elt F))
    (W2l W2r : (⟨S128x40, .f32⟩ : BufTy).Contents (Elt F)) (b2 : (⟨S40, .f32⟩ : BufTy).Contents (Elt F)) :
    (⟨S50000x40, .f32⟩ : BufTy).Contents (Elt F) :=
  lsmH (relu2 (pre2 (relu1 (pre1 x e W1l W1r b1)) e W2l W2r b2))

/-- The fold of all 87 operations, at the result buffer. -/
theorem after_ops_result : after (ops (F := F)) W (Proc.devRef .tc main_v56)
    = result (F := F) (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) (W (Proc.devRef .tc main_arg7)) := by
  rw [ops_split, Cert.LibAfterAppend.after_append5, E_v56, D_v55,
    C_v54 _ (W (Proc.devRef .tc main_arg1)) ((B_v1 _).trans (A_v1 W)) ((B_v3 _).trans (A_v3 W)),
    B_v29, A_v28, B_arg5, B_arg6, B_arg7, A_arg5, A_arg6, A_arg7]
  rfl

set_option maxRecDepth 8192 in
set_option maxHeartbeats 34800000 in
/-- On every device, for any float values, from any memory with zero counters: every weakly fair execution of the
    reference's @main terminates with the result buffer at `result` of the arguments' launch contents and the arguments
    unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
        = result (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v56).trans (after_ops_result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_after m ρ)

end Cert.ReferenceIdeal.RefRun

end
-- ==== Proof.LibHostRows.lean ====
/-
  Host operations of a small dense network read at one index, over the extended reals.

  The general dot product contracting the last axis of a matrix with the last axis of a second matrix, or of a
  rank-3 array, is at each result index the sum over the contracted coordinate of the products of the two entries.
  The host's sum and maximum over the columns of a matrix are the finite sum and the fold of the maximum over the
  column coordinate. A broadcast reads the operand at the coordinates it keeps. A slice of one leading block
  followed by the cast that forgets the unit axis reads the array at that block.
-/
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.RefOps

open Idealize.ShloMosaic Idealize.ShloMosaic.ValueIdx

/-! ## Dot products contracting the last axes -/

/-- An M × K matrix against an N × K matrix, contracting both second axes: entry (a, b) is the sum over c of
    A (a, c) * B (b, c). -/
theorem dotGeneral_rows_apply {M K N : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (F := Ideal) (⟨[1], [1], [0], [0], [], [], w⟩ : DotDims _ _ _) prec A B (ix2 a b)
      = ∑ c : Fin K, A (ix2 a c) * B (ix2 b c) := by
  simp only [Host.dotGeneral]
  rw [Ideal.dotGeneral_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- An M × K matrix against an N × J × K array, contracting the matrix's second axis with the array's last:
    entry (a, e, r) is the sum over c of A (a, c) * B (e, r, c). -/
theorem dotGeneral_rows3_apply {M K N J : ℕ} {φ₁ φ₂ : FTy}
    (w : DotDims.WF ⟨2, ![M, K]⟩ ⟨3, ![N, J, K]⟩ ⟨3, ![M, N, J]⟩ [1] [2] [0] [0, 1] [] [])
    (prec : Option ContractPrecision) (A : FVec Ideal ⟨2, ![M, K]⟩ φ₁) (B : FVec Ideal ⟨3, ![N, J, K]⟩ φ₂)
    (a : Fin M) (e : Fin N) (r : Fin J) :
    Host.dotGeneral (F := Ideal) (⟨[1], [2], [0], [0, 1], [], [], w⟩ : DotDims _ _ _) prec A B (ix3 a e r)
      = ∑ c : Fin K, A (ix2 a c) * B (ix3 e r c) := by
  simp only [Host.dotGeneral]
  rw [Ideal.dotGeneral_apply,
    ← Equiv.sum_comp (contrEquiv1 (⟨[1], [2], [0], [0, 1], [], [], w⟩ : DotDims _ _ _) K rfl rfl).symm]
  refine Finset.sum_congr rfl fun c _ => ?_
  have c2 := contrEquiv1_symm_val
    (⟨[1], [2], [0], [0, 1], [], [], w⟩ : DotDims ⟨2, ![M, K]⟩ ⟨3, ![N, J, K]⟩ ⟨3, ![M, N, J]⟩) K rfl rfl c
  have l2 : (⟨[1], [2], [0], [0, 1], [], [], w⟩ : DotDims ⟨2, ![M, K]⟩ ⟨3, ![N, J, K]⟩ ⟨3, ![M, N, J]⟩).lhsIdx (ix3 a e r)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [2], [0], [0, 1], [], [], w⟩ : DotDims ⟨2, ![M, K]⟩ ⟨3, ![N, J, K]⟩ ⟨3, ![M, N, J]⟩).rhsIdx (ix3 a e r)
      ((contrEquiv1 _ K rfl rfl).symm c) = ix3 e r c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c2
  rw [l2, r2]

/-! ## Reductions over the columns of a matrix -/

/-- The reduced index a of [N] with k inserted on the dropped second axis is (a, k). -/
theorem lift_cols {N K : Nat} (h : (⟨2, ![N, K]⟩ : Shape).Reduces [1] ⟨1, ![N]⟩) (a : Fin N) (k : Fin K) :
    h.lift (ix1 a) k = ix2 a k := by
  funext b; refine Fin.ext ?_
  match b with
  | ⟨0, _⟩ => rfl
  | ⟨1, _⟩ => rfl

/-- The host's sum over the columns of [N, K] from the initial value 0, read at row a: the sum over k of the
    matrix at (a, k). -/
theorem hostReduceAdd_cols_apply {N K : Nat} {u : Shape} (x : FVec Ideal ⟨2, ![N, K]⟩ .f32)
    (h' : (⟨2, ![N, K]⟩ : Shape).ReducesTo [1] ⟨1, ![N]⟩) (hu : 0 < u.numel) (a : Fin N) :
    Host.reduceAdd (F := Ideal) x (constant (F := Ideal) u .f32 0x00000000#32) h' hu (ix1 a)
      = ∑ k : Fin K, x (ix2 a k) := by
  have h : (⟨2, ![N, K]⟩ : Shape).Reduces [1] ⟨1, ![N]⟩ := ⟨h'.1, Nat.zero_lt_one, h'.2⟩
  show Ideal.hostReduceAdd h' x (Ideal.ofBits .f32 0x00000000#32) (ix1 a) = _
  rw [Ideal.hostReduceAdd_single h' h x _ (ix1 a), Ideal.ofBits_zero_f32, zero_add]
  exact Finset.sum_congr rfl fun k _ => congrArg x (lift_cols h a k)

/-- The host's maximum over the columns of [N, K] from a constant initial value, read at row a: the fold of the
    maximum from that value over k of the matrix at (a, k). -/
theorem hostReduce_max_cols_apply {N K : Nat} {u : Shape} (x : FVec Ideal ⟨2, ![N, K]⟩ .f32) (bits : BitVec 32)
    (h' : (⟨2, ![N, K]⟩ : Shape).ReducesTo [1] ⟨1, ![N]⟩) (hu : 0 < u.numel) (a : Fin N) :
    Host.reduce FloatOps.maximumf x (constant (F := Ideal) u .f32 bits) h' hu (ix1 a)
      = (Finset.univ : Finset (Fin K)).fold max (Ideal.ofBits .f32 bits) (fun k => x (ix2 a k)) := by
  have h : (⟨2, ![N, K]⟩ : Shape).Reduces [1] ⟨1, ![N]⟩ := ⟨h'.1, Nat.zero_lt_one, h'.2⟩
  rw [Host.reduce_eq_fold_single FloatOps.maximumf x _ h' h hu]
  exact congrArg ((Finset.univ : Finset (Fin K)).fold max (Ideal.ofBits .f32 bits))
    (funext fun k => congrArg x (lift_cols h a k))

/-! ## Broadcasts -/

section Broadcast
variable {α : Type}

/-- A column [R, 1] broadcast along both axes of [R, C], read at (p, c): the column's entry of row p. -/
theorem broadcastInDim_col_mat_apply {R C : Nat} (x : (⟨2, ![R, 1]⟩ : Shape).Idx → α)
    (h : (⟨2, ![R, 1]⟩ : Shape).BroadcastsInDim ⟨2, ![R, C]⟩ ![0, 1]) (p : Fin R) (c : Fin C) :
    broadcastInDim ⟨2, ![R, C]⟩ ![0, 1] h x (ix2 p c) = x (ix2 p 0) :=
  broadcastInDim_apply _ h x (ix2 p c) (ix2 p 0) (fun a => match a with
    | ⟨0, _⟩ => by
      show p.val = if R = 1 then 0 else p.val
      have := p.isLt
      split <;> omega
    | ⟨1, _⟩ => rfl)

/-- A vector [R] broadcast along axis 0 of [R, 1], read at (e, z): the vector at e. -/
theorem broadcastInDim_vec_col_apply {R : Nat} (x : (⟨1, ![R]⟩ : Shape).Idx → α)
    (h : (⟨1, ![R]⟩ : Shape).BroadcastsInDim ⟨2, ![R, 1]⟩ ![0]) (e : Fin R) (z : Fin 1) :
    broadcastInDim ⟨2, ![R, 1]⟩ ![0] h x (ix2 e z) = x (ix1 e) :=
  broadcastInDim_apply _ h x (ix2 e z) (ix1 e) (fun a => match a with
    | ⟨0, _⟩ => by
      show e.val = if R = 1 then 0 else e.val
      have := e.isLt
      split <;> omega)

/-- A vector [C] broadcast along axis 1 of [1, C], read at (z, c): the vector at c. -/
theorem broadcastInDim_vec_row_apply {C : Nat} (x : (⟨1, ![C]⟩ : Shape).Idx → α)
    (h : (⟨1, ![C]⟩ : Shape).BroadcastsInDim ⟨2, ![1, C]⟩ ![1]) (z : Fin 1) (c : Fin C) :
    broadcastInDim ⟨2, ![1, C]⟩ ![1] h x (ix2 z c) = x (ix1 c) :=
  broadcastInDim_apply _ h x (ix2 z c) (ix1 c) (fun a => match a with
    | ⟨0, _⟩ => by
      show c.val = if C = 1 then 0 else c.val
      have := c.isLt
      split <;> omega)

/-- A row [1, C] broadcast along both axes of [R, C], read at (p, c): the row's entry of column c. -/
theorem broadcastInDim_row_mat_apply {R C : Nat} (x : (⟨2, ![1, C]⟩ : Shape).Idx → α)
    (h : (⟨2, ![1, C]⟩ : Shape).BroadcastsInDim ⟨2, ![R, C]⟩ ![0, 1]) (p : Fin R) (c : Fin C) :
    broadcastInDim ⟨2, ![R, C]⟩ ![0, 1] h x (ix2 p c) = x (ix2 0 c) :=
  broadcastInDim_apply _ h x (ix2 p c) (ix2 0 c) (fun a => match a with
    | ⟨0, _⟩ => rfl
    | ⟨1, _⟩ => by
      show c.val = if C = 1 then 0 else c.val
      have := c.isLt
      split <;> omega)

/-- A scalar broadcast to a vector reads the scalar everywhere. -/
theorem broadcastInDim_scalar_apply {R : Nat} (x : (⟨0, ![]⟩ : Shape).Idx → α)
    (h : (⟨0, ![]⟩ : Shape).BroadcastsInDim ⟨1, ![R]⟩ ![]) (k : (⟨0, ![]⟩ : Shape).Idx) (e : Fin R) :
    broadcastInDim ⟨1, ![R]⟩ ![] h x (ix1 e) = x k :=
  broadcastInDim_apply _ h x (ix1 e) k (fun a => a.elim0)

end Broadcast

/-! ## One leading block of an array, its unit axis forgotten -/

section Block
variable {α : Type}

/-- Block l of a [L, A] matrix, as a vector: entry e is the matrix at (l, e). -/
theorem block2_apply {L A : Nat} (o : Nat) (l : Fin L) (ho : l.val = o) (x : (⟨2, ![L, A]⟩ : Shape).Idx → α)
    (h : (⟨2, ![L, A]⟩ : Shape).Slices ![o, 0] ⟨2, ![1, A]⟩)
    (hc : (⟨2, ![1, A]⟩ : Shape).ShapeCasts ⟨1, ![A]⟩) (e : Fin A) :
    shapeCast ⟨1, ![A]⟩ (extractStridedSlice ⟨2, ![1, A]⟩ ![o, 0] x h) hc (ix1 e) = x (ix2 l e) := by
  refine (shapeCast_apply _ hc (ix1 e) (ix2 0 e) ?_).trans ?_
  · rw [Shape.rowMajor_val_one, Shape.rowMajor_val_two]
    show 0 * A + e.val = e.val
    rw [Nat.zero_mul, Nat.zero_add]
  · exact extractStridedSlice_apply _ x h (ix2 0 e) (ix2 l e) (fun a => match a with
      | ⟨0, _⟩ => by show l.val = o + 0; omega
      | ⟨1, _⟩ => by show e.val = 0 + e.val; omega)

/-- Block l of a [L, A, B] array, as a matrix: entry (e, d) is the array at (l, e, d). -/
theorem block3_apply {L A B : Nat} (o : Nat) (l : Fin L) (ho : l.val = o) (x : (⟨3, ![L, A, B]⟩ : Shape).Idx → α)
    (h : (⟨3, ![L, A, B]⟩ : Shape).Slices ![o, 0, 0] ⟨3, ![1, A, B]⟩)
    (hc : (⟨3, ![1, A, B]⟩ : Shape).ShapeCasts ⟨2, ![A, B]⟩) (e : Fin A) (d : Fin B) :
    shapeCast ⟨2, ![A, B]⟩ (extractStridedSlice ⟨3, ![1, A, B]⟩ ![o, 0, 0] x h) hc (ix2 e d) = x (ix3 l e d) := by
  refine (shapeCast_apply _ hc (ix2 e d) (ix3 0 e d) ?_).trans ?_
  · rw [Shape.rowMajor_val_two, Shape.rowMajor_val_three]
    show (0 * A + e.val) * B + d.val = e.val * B + d.val
    rw [Nat.zero_mul, Nat.zero_add]
  · exact extractStridedSlice_apply _ x h (ix3 0 e d) (ix3 l e d) (fun a => match a with
      | ⟨0, _⟩ => by show l.val = o + 0; omega
      | ⟨1, _⟩ => by show e.val = 0 + e.val; omega
      | ⟨2, _⟩ => by show d.val = 0 + d.val; omega)

/-- Block l of a [L, A, B, C] array, as a rank-3 array: entry (e, r, d) is the array at (l, e, r, d). -/
theorem block4_apply {L A B C : Nat} (o : Nat) (l : Fin L) (ho : l.val = o)
    (x : (⟨4, ![L, A, B, C]⟩ : Shape).Idx → α)
    (h : (⟨4, ![L, A, B, C]⟩ : Shape).Slices ![o, 0, 0, 0] ⟨4, ![1, A, B, C]⟩)
    (hc : (⟨4, ![1, A, B, C]⟩ : Shape).ShapeCasts ⟨3, ![A, B, C]⟩) (e : Fin A) (r : Fin B) (d : Fin C) :
    shapeCast ⟨3, ![A, B, C]⟩ (extractStridedSlice ⟨4, ![1, A, B, C]⟩ ![o, 0, 0, 0] x h) hc (ix3 e r d)
      = x (ix4 l e r d) := by
  refine (shapeCast_apply _ hc (ix3 e r d) (ix4 0 e r d) ?_).trans ?_
  · rw [Shape.rowMajor_val_three, Shape.rowMajor_val_four]
    show ((0 * A + e.val) * B + r.val) * C + d.val = (e.val * B + r.val) * C + d.val
    rw [Nat.zero_mul, Nat.zero_add]
  · exact extractStridedSlice_apply _ x h (ix4 0 e r d) (ix4 l e r d) (fun a => match a with
      | ⟨0, _⟩ => by show l.val = o + 0; omega
      | ⟨1, _⟩ => by show e.val = 0 + e.val; omega
      | ⟨2, _⟩ => by show r.val = 0 + r.val; omega
      | ⟨3, _⟩ => by show d.val = 0 + d.val; omega)

end Block

end Cert.RefOps

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.HostLayer.lean ====
/-
  The host program's two layers and its log-softmax are the specification's functions.

  Entry `(r, j)` of a host layer is `max (∑ c, mean (r, c) · Wl (c, j) + ∑ c, feat (r, c) · Wr (c, j) + b j) 0`: each
  general dot product contracting the second axis of its left operand with the first axis of its right operand is, at
  an entry, the sum over the 128 contracted channels; the bias reaches `(r, j)` through the broadcasts
  `[C] → [1, C] → [50000, C]`; the word of `0` reaches every entry through a rank-0 broadcast. The mean aggregate at
  `(r, c)` is the neighbourhood sum divided by `max (deg r) 1`, the clamped in-degree reaching `(r, c)` through the
  column broadcasts `[50000] → [50000, 1] → [50000, 128]`; this is the specification's row-wise quotient. The
  neighbourhood sums and the in-degrees stay the same unopened terms on both sides.

  The host's row maximum is the fold of the maximum from `-∞` over the row, joined once more with `-∞`, which changes
  nothing; the shifted entries, the row sum of their exponentials from `0`, and the logarithm subtracted are then,
  entry by entry, the specification's log-softmax.
-/
import proofs.«112267_j24215025615234_2_alg».proof.Proof.HostTerms
import proofs.«112267_j24215025615234_2_alg».proof.Proof.Spec
import proofs.«112267_j24215025615234_2_alg».proof.Proof.LibHostRows
import proofs.«112267_j24215025615234_2_alg».proof.Proof.LibHostDotIx

noncomputable section

open scoped BigOperators

namespace Cert.ReferenceIdeal.HostLayer

open Idealize.ShloMosaic Idealize.ShloMosaic.ValueIdx
open Cert.ReferenceIdeal Cert.ReferenceIdeal.HostTerms

section Pointwise
variable {s : Shape}

/-- The host's quotient at an index is the quotient of the entries. -/
theorem hostDivf_apply (a b : FVec Ideal s .f32) (i : s.Idx) : Host.divf a b i = Ideal.div (a i) (b i) := rfl
/-- The host's exponential at an index is the exponential of the entry. -/
theorem hostExp_apply (a : FVec Ideal s .f32) (i : s.Idx) : Host.exp a i = Ideal.exp (a i) := rfl
/-- The host's logarithm at an index is the logarithm of the entry. -/
theorem hostLog_apply (a : FVec Ideal s .f32) (i : s.Idx) : Host.log a i = Ideal.log (a i) := rfl

end Pointwise

/-- A scalar broadcast to a matrix reads the scalar everywhere. -/
theorem broadcastInDim_scalar_mat_apply {α : Type} {R C : Nat} (x : (⟨0, ![]⟩ : Shape).Idx → α)
    (h : (⟨0, ![]⟩ : Shape).BroadcastsInDim ⟨2, ![R, C]⟩ ![]) (k : (⟨0, ![]⟩ : Shape).Idx) (p : Fin R) (c : Fin C) :
    broadcastInDim ⟨2, ![R, C]⟩ ![] h x (ix2 p c) = x k :=
  broadcastInDim_apply _ h x (ix2 p c) k (fun a => a.elim0)

/-- The clamped in-degree at node `r`: the maximum of the degree and the word of `1`. -/
theorem dmax_apply (e : (⟨S2x800000, .i32⟩ : BufTy).Contents (Elt Ideal)) (r : Fin 50000) :
    dmax (F := Ideal) e (ix1 r) = max (deg (F := Ideal) e (ix1 r)) Cert.Sage.oneW := by
  unfold dmax
  rw [maximumf_apply, Cert.RefOps.broadcastInDim_scalar_apply _ _ ix0 r, constant_apply]

/-- The mean aggregate at `(r, c)`: the neighbourhood sum divided by the node's clamped in-degree. -/
theorem mean_apply (feat : (⟨S50000x128, .f32⟩ : BufTy).Contents (Elt Ideal)) (e : (⟨S2x800000, .i32⟩ : BufTy).Contents (Elt Ideal))
    (r : Fin 50000) (c : Fin 128) :
    mean (F := Ideal) feat e (ix2 r c)
      = Ideal.div (aggr (F := Ideal) feat e (ix2 r c)) (max (deg (F := Ideal) e (ix1 r)) Cert.Sage.oneW) := by
  unfold mean
  rw [hostDivf_apply, Cert.RefOps.broadcastInDim_col_mat_apply, Cert.RefOps.broadcastInDim_vec_col_apply, dmax_apply]

/-- The mean aggregate is the specification's row-wise quotient. -/
theorem mean_eq (feat : (⟨S50000x128, .f32⟩ : BufTy).Contents (Elt Ideal)) (e : (⟨S2x800000, .i32⟩ : BufTy).Contents (Elt Ideal)) :
    mean (F := Ideal) feat e
      = Cert.Sage.scaleDiv (aggr (F := Ideal) feat e) (fun i => max (deg (F := Ideal) e i) Cert.Sage.oneW) := by
  funext i
  obtain ⟨r, c, rfl⟩ : ∃ (r : Fin 50000) (c : Fin 128), i = ix2 r c := ⟨i 0, i 1, eq_ix2 i⟩
  rw [mean_apply, Cert.Sage.scaleDiv_ix2]

/-- One layer at entry `(r, j)`, for any output width `C`: the two contractions over the 128 input channels, the bias
    carried along the rows, and the clamp against the word of `0` carried to every entry. -/
theorem layer_apply {C : ℕ}
    (w : DotDims.WF ⟨2, ![50000, 128]⟩ ⟨2, ![128, C]⟩ ⟨2, ![50000, C]⟩ [1] [0] [0] [1] [] [])
    (hv : (⟨1, ![C]⟩ : Shape).BroadcastsInDim ⟨2, ![1, C]⟩ ![1])
    (hm : (⟨2, ![1, C]⟩ : Shape).BroadcastsInDim ⟨2, ![50000, C]⟩ ![0, 1])
    (h0 : (⟨0, ![]⟩ : Shape).BroadcastsInDim ⟨2, ![50000, C]⟩ ![])
    (a feat : FVec Ideal ⟨2, ![50000, 128]⟩ .f32) (Wl Wr : FVec Ideal ⟨2, ![128, C]⟩ .f32) (b : FVec Ideal ⟨1, ![C]⟩ .f32)
    (r : Fin 50000) (j : Fin C) :
    maximumf (addf (addf (Host.dotGeneral (F := Ideal) (⟨[1], [0], [0], [1], [], [], w⟩ : DotDims _ _ _) none a Wl)
          (Host.dotGeneral (F := Ideal) (⟨[1], [0], [0], [1], [], [], w⟩ : DotDims _ _ _) none feat Wr))
        (broadcastInDim ⟨2, ![50000, C]⟩ ![0, 1] hm (broadcastInDim ⟨2, ![1, C]⟩ ![1] hv b)))
      (broadcastInDim ⟨2, ![50000, C]⟩ ![] h0 (constant (F := Ideal) ⟨0, ![]⟩ .f32 0x00000000#32)) (ix2 r j)
    = Cert.Sage.linAt a feat Wl Wr b r j := by
  rw [maximumf_apply, addf_apply, addf_apply, Cert.LibHostDotIx.dotGeneral_apply, Cert.LibHostDotIx.dotGeneral_apply,
    Cert.RefOps.broadcastInDim_row_mat_apply, Cert.RefOps.broadcastInDim_vec_row_apply,
    broadcastInDim_scalar_mat_apply _ _ ix0, constant_apply]
  rfl

theorem layer1_eq (feat : (⟨S50000x128, .f32⟩ : BufTy).Contents (Elt Ideal)) (e : (⟨S2x800000, .i32⟩ : BufTy).Contents (Elt Ideal))
    (Wl Wr : (⟨S128x128, .f32⟩ : BufTy).Contents (Elt Ideal)) (b : (⟨S128, .f32⟩ : BufTy).Contents (Elt Ideal)) :
    relu1 (F := Ideal) (pre1 feat e Wl Wr b)
      = Cert.Sage.lin (Cert.Sage.scaleDiv (aggr (F := Ideal) feat e) (fun i => max (deg (F := Ideal) e i) Cert.Sage.oneW)) feat Wl Wr b := by
  funext i
  obtain ⟨r, j, rfl⟩ : ∃ (r : Fin 50000) (j : Fin 128), i = ix2 r j := ⟨i 0, i 1, eq_ix2 i⟩
  rw [Cert.Sage.lin_ix2, ← mean_eq]
  unfold relu1 pre1
  exact layer_apply _ _ _ _ (mean (F := Ideal) feat e) feat Wl Wr b r j

theorem layer2_eq (feat : (⟨S50000x128, .f32⟩ : BufTy).Contents (Elt Ideal)) (e : (⟨S2x800000, .i32⟩ : BufTy).Contents (Elt Ideal))
    (Wl Wr : (⟨S128x40, .f32⟩ : BufTy).Contents (Elt Ideal)) (b : (⟨S40, .f32⟩ : BufTy).Contents (Elt Ideal)) :
    relu2 (F := Ideal) (pre2 feat e Wl Wr b)
      = Cert.Sage.lin (Cert.Sage.scaleDiv (aggr (F := Ideal) feat e) (fun i => max (deg (F := Ideal) e i) Cert.Sage.oneW)) feat Wl Wr b := by
  funext i
  obtain ⟨r, j, rfl⟩ : ∃ (r : Fin 50000) (j : Fin 40), i = ix2 r j := ⟨i 0, i 1, eq_ix2 i⟩
  rw [Cert.Sage.lin_ix2, ← mean_eq]
  unfold relu2 pre2
  exact layer_apply _ _ _ _ (mean (F := Ideal) feat e) feat Wl Wr b r j

/-- The host's row maximum at row `r`: the fold of the maximum from `-∞` over the row; the further maximum against
    `-∞` changes nothing. -/
theorem rowMaxH_apply (o : (⟨S50000x40, .f32⟩ : BufTy).Contents (Elt Ideal)) (r : Fin 50000) :
    rowMaxH (F := Ideal) o (ix1 r) = Cert.Sage.rowMax o r := by
  unfold rowMaxH
  rw [maximumf_apply, Cert.RefOps.broadcastInDim_scalar_apply _ _ ix0 r, constant_apply,
    Cert.RefOps.hostReduce_max_cols_apply]
  exact Cert.Sage.max_fold_max_self _ _ _

/-- The shifted entry at `(r, j)`: the entry minus its row's maximum. -/
theorem shiftH_apply (o : (⟨S50000x40, .f32⟩ : BufTy).Contents (Elt Ideal)) (r : Fin 50000) (j : Fin 40) :
    shiftH (F := Ideal) o (ix2 r j) = o (ix2 r j) - Cert.Sage.rowMax o r := by
  unfold shiftH
  rw [subf_apply, Cert.RefOps.broadcastInDim_col_mat_apply, Cert.RefOps.broadcastInDim_vec_col_apply, rowMaxH_apply]

theorem lsmH_eq (o : (⟨S50000x40, .f32⟩ : BufTy).Contents (Elt Ideal)) :
    lsmH (F := Ideal) o = Cert.Sage.lsm o := by
  funext i
  obtain ⟨r, j, rfl⟩ : ∃ (r : Fin 50000) (j : Fin 40), i = ix2 r j := ⟨i 0, i 1, eq_ix2 i⟩
  rw [Cert.Sage.lsm_ix2]
  unfold lsmH Cert.Sage.lsmAt
  rw [subf_apply, shiftH_apply, Cert.RefOps.broadcastInDim_col_mat_apply, hostLog_apply,
    Cert.RefOps.broadcastInDim_vec_col_apply, Cert.RefOps.hostReduceAdd_cols_apply]
  refine congrArg (fun z => (o (ix2 r j) - Cert.Sage.rowMax o r) - Ideal.log z) ?_
  exact Finset.sum_congr rfl fun k _ => (hostExp_apply _ _).trans (congrArg Ideal.exp (shiftH_apply o r k))

end Cert.ReferenceIdeal.HostLayer

end
-- ==== Proof.HostAgree.lean ====
/-
  At the exact values the two programs' host formulas coincide.

  Both programs slice the edge list, wrap the sources, gather rows and scatter-add them with the same operations and
  the same dimension records (stated once per program, with equal contents), so the formulas are equal by unfolding.
  The kernel's gather runs on the features in a narrower float format and widens the gathered rows; a change of format
  is the identity on exact values, so its neighbourhood sums are the reference's. The kernel's column of reciprocals,
  read at row `r`, is `1 / max (deg r, 1)`.
-/
import proofs.«112267_j24215025615234_2_alg».proof.Proof.KHost
import proofs.«112267_j24215025615234_2_alg».proof.Proof.HostTerms
import proofs.«112267_j24215025615234_2_alg».proof.Proof.Spec
import proofs.«112267_j24215025615234_2_alg».proof.Proof.LibKeepdims
import proofs.«112267_j24215025615234_2_alg».proof.Proof.LibHostRows

noncomputable section

namespace Cert.HostAgree

open Idealize.ShloMosaic Idealize.ShloMosaic.ValueIdx

abbrev Edges := (⟨2, ![2, 800000]⟩ : Shape).Idx → BitVec 32
abbrev Feats := (⟨2, ![50000, 128]⟩ : Shape).Idx → EReal

theorem src_eq (e : Edges) : Cert.KernelIdeal.KHost.src (F := Ideal) e = Cert.ReferenceIdeal.HostTerms.src (F := Ideal) e := rfl
theorem dst_eq (e : Edges) : Cert.KernelIdeal.KHost.dst (F := Ideal) e = Cert.ReferenceIdeal.HostTerms.dst (F := Ideal) e := rfl
theorem wsrc_eq (e : Edges) : Cert.KernelIdeal.KHost.wsrc (F := Ideal) e = Cert.ReferenceIdeal.HostTerms.wsrc (F := Ideal) e := rfl

/-- The features in the narrower format are the features. -/
theorem xbf_eq (x : Feats) : Cert.KernelIdeal.KHost.xbf (F := Ideal) x = x := rfl

/-- The neighbourhood sums through the narrow format are the reference's. -/
theorem aggr_eq (feat : Feats) (e : Edges) :
    Cert.KernelIdeal.KHost.aggr (F := Ideal) feat e = Cert.ReferenceIdeal.HostTerms.aggr (F := Ideal) feat e := rfl

theorem deg_eq (e : Edges) : Cert.KernelIdeal.KHost.deg (F := Ideal) e = Cert.ReferenceIdeal.HostTerms.deg (F := Ideal) e := rfl

/-- The host's quotient at an index is the quotient of the entries. -/
theorem hostDivf_at {s : Shape} (a b : FVec Ideal s .f32) (i : s.Idx) : Host.divf a b i = Ideal.div (a i) (b i) := rfl

/-- The column of reciprocals at row `r`: `1 / max (deg r, 1)`. -/
theorem inv_apply (e : Edges) (r : Fin 50000) :
    Cert.KernelIdeal.KHost.inv (F := Ideal) e (ix2 r (0 : Fin 1))
      = Ideal.div Cert.Sage.oneW (max (Cert.ReferenceIdeal.HostTerms.deg (F := Ideal) e (ix1 r)) Cert.Sage.oneW) := by
  unfold Cert.KernelIdeal.KHost.inv
  rw [Cert.LibKeepdims.shapeCast_a_a1_apply, hostDivf_at, maximumf_apply,
    Cert.RefOps.broadcastInDim_scalar_apply _ _ ix0 r, constant_apply, deg_eq]

/-- Multiplying the neighbourhood sums by the kernel's reciprocal column is dividing them by the reference's clamped
    in-degree. -/
theorem scale_eq (A : Feats) (e : Edges) :
    Cert.Sage.scaleMul A (Cert.KernelIdeal.KHost.inv (F := Ideal) e)
      = Cert.Sage.scaleDiv A (fun i => max (Cert.ReferenceIdeal.HostTerms.deg (F := Ideal) e i) Cert.Sage.oneW) :=
  Cert.Sage.scaleMul_recip_eq_scaleDiv A _ _ (inv_apply e)

end Cert.HostAgree

end
-- ==== Proof.Bridge.lean ====
/-
  The two programs compute the same function of the arguments, as extended reals.

  The reference's result is the log-softmax of its clamped second layer of its clamped first layer; each host layer is
  the specification's `lin` of the neighbourhood sums DIVIDED by the clamped in-degree, and the host's log-softmax is
  the specification's `lsm`. The kernel's result is `lsm` of `lin` of the neighbourhood sums MULTIPLIED by the reciprocal
  of the clamped in-degree. The neighbourhood sums and the in-degrees are the same terms on both sides (a change of float
  format is the identity on exact values), and `s · (1 / d) = s / d` for `d = max (deg, 1) ≠ 0` on the extended reals — so the
  two first layers are one array `h`, and then the two second layers and their log-softmax are one array.
-/
import proofs.«112267_j24215025615234_2_alg».proof.Proof.KValue
import proofs.«112267_j24215025615234_2_alg».proof.Proof.RefRun
import proofs.«112267_j24215025615234_2_alg».proof.Proof.HostLayer
import proofs.«112267_j24215025615234_2_alg».proof.Proof.HostAgree

noncomputable section

namespace Cert.Bridge

open Idealize.ShloMosaic

variable (x : (⟨2, ![50000, 128]⟩ : Shape).Idx → EReal) (e : (⟨2, ![2, 800000]⟩ : Shape).Idx → BitVec 32)
  (W1l W1r : (⟨2, ![128, 128]⟩ : Shape).Idx → EReal) (b1 : (⟨1, ![128]⟩ : Shape).Idx → EReal)
  (W2l W2r : (⟨2, ![128, 40]⟩ : Shape).Idx → EReal) (b2 : (⟨1, ![40]⟩ : Shape).Idx → EReal)

/-- The kernel's first layer is the reference's. -/
theorem hidden_eq : Cert.KernelIdeal.KValue.hidden x e W1l W1r b1
    = Cert.ReferenceIdeal.HostTerms.relu1 (F := Ideal) (Cert.ReferenceIdeal.HostTerms.pre1 x e W1l W1r b1) := by
  rw [Cert.ReferenceIdeal.HostLayer.layer1_eq]
  unfold Cert.KernelIdeal.KValue.hidden
  rw [Cert.HostAgree.xbf_eq, Cert.HostAgree.aggr_eq, Cert.HostAgree.scale_eq]

/-- The kernel's result is the reference's. -/
theorem result_eq : Cert.KernelIdeal.KValue.result x e W1l W1r b1 W2l W2r b2
    = Cert.ReferenceIdeal.RefRun.result (F := Ideal) x e W1l W1r b1 W2l W2r b2 := by
  unfold Cert.KernelIdeal.KValue.result Cert.ReferenceIdeal.RefRun.result
  rw [Cert.ReferenceIdeal.HostLayer.lsmH_eq, Cert.ReferenceIdeal.HostLayer.layer2_eq, hidden_eq,
    Cert.HostAgree.aggr_eq, Cert.HostAgree.scale_eq]

end Cert.Bridge

end
-- ==== Proof.lean ====
/-
  The certificate of a two-layer GraphSAGE network over 50000 nodes and 800000 edges: a kernel that computes each layer's
  dense part (mean normalisation, two matrix products, bias, clamp, and for the last layer a row-wise log-softmax) in a
  Pallas region tiled over the nodes, 2000 rows a block, against a reference that computes the whole network by array
  operations on the host.

  The three frame claims: the two kernel programs' frames are the generated ones; the reference's is its run with the
  result dropped. The idealization rewrote nothing, so it is preserved trivially. The value claim: run from memories
  agreeing on the arguments, both idealized programs end with the same result array. The kernel's run ends with the
  result buffer at the log-softmax of the clamped second layer of the clamped first layer, each layer the specification's
  function of the neighbourhood sums times the reciprocal clamped in-degree (the regions' blocks are rows 2000·t … 2000·t + 1999
  of that function, which reads one row at a time); the reference's run ends at the same with a division in place of the
  reciprocal; and on the extended reals `s · (1 / d) = s / d` whenever `d ≠ 0`, which a maximum against `1` always is. No
  finiteness of the inputs is used.
-/
import proofs.«112267_j24215025615234_2_alg».proof.Defs
import proofs.«112267_j24215025615234_2_alg».proof.Proof.Gen.Kernel
import proofs.«112267_j24215025615234_2_alg».proof.Proof.Gen.Kernel.Skeleton
import proofs.«112267_j24215025615234_2_alg».proof.Proof.Gen.Kernel.Launch
import proofs.«112267_j24215025615234_2_alg».proof.Proof.Gen.Kernel.Points
import proofs.«112267_j24215025615234_2_alg».proof.Proof.Gen.Kernel.Frame
import proofs.«112267_j24215025615234_2_alg».proof.Proof.Gen.KernelIdeal
import proofs.«112267_j24215025615234_2_alg».proof.Proof.Gen.KernelIdeal.Skeleton
import proofs.«112267_j24215025615234_2_alg».proof.Proof.Gen.KernelIdeal.Launch
import proofs.«112267_j24215025615234_2_alg».proof.Proof.Gen.KernelIdeal.Points
import proofs.«112267_j24215025615234_2_alg».proof.Proof.Gen.KernelIdeal.Frame
import proofs.«112267_j24215025615234_2_alg».proof.Proof.Gen.ReferenceIdeal
import proofs.«112267_j24215025615234_2_alg».proof.Proof.Gen.Pre_finite_inputs
import proofs.«112267_j24215025615234_2_alg».proof.Proof.BlockValue
import proofs.«112267_j24215025615234_2_alg».proof.Proof.LayerArrays
import proofs.«112267_j24215025615234_2_alg».proof.Proof.KRun
import proofs.«112267_j24215025615234_2_alg».proof.Proof.KValue
import proofs.«112267_j24215025615234_2_alg».proof.Proof.RefRun
import proofs.«112267_j24215025615234_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run_value (F := Ideal) m ρ)

/-- The idealization rewrote no operation. -/
theorem preserves : Cert.preserves_Kernel_KernelIdeal := trivial

/-- Both idealized programs end with the result array at one function of the arguments. -/
theorem algebraic : Cert.algebraic_KernelIdeal_ReferenceIdeal := by
  intro m ρ m' ρ' _ hagree
  refine ⟨fun c => Cert.KernelIdeal.KValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.W4_v37 m ρ c
          (Cert.KernelIdeal.LayerArrays.layer1_arr Cert.KernelIdeal.BlockValue.k0_pay1_apply)
          (Cert.KernelIdeal.LayerArrays.layer2_arr Cert.KernelIdeal.BlockValue.k1_pay1_apply)), (h c).2⟩)
      (Cert.KernelIdeal.RunValue.run_value m ρ)
  · refine (θ_run Cert.ReferenceIdeal.defs _ _).mono (fun r h c => ⟨(h c).1.trans ?_, (h c).2⟩)
      (Cert.ReferenceIdeal.RefRun.run_value (F := Ideal) m' ρ')
    obtain ⟨a0, a1, a2, a3, a4, a5, a6, a7⟩ := hagree c
    rw [a0, a1, a2, a3, a4, a5, a6, a7]
    exact (Cert.Bridge.result_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
